-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x6400000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S8000x3 : Shape := ⟨2, ![8000, 3]⟩
abbrev S8000x16 : Shape := ⟨2, ![8000, 16]⟩
abbrev S8000x1 : Shape := ⟨2, ![8000, 1]⟩
abbrev S8000 : Shape := ⟨1, ![8000]⟩

abbrev nBuf : Space → Nat
  | .hbm => 26
  | .vmem => 4
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S1x6400000, .i32⟩
  | .hbm, ⟨3, _⟩ => ⟨S6400000, .i32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S6400000x3, .f32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x3, .f32⟩
  | .hbm, ⟨24, _⟩ => ⟨S6400000x3, .f32⟩
  | .hbm, ⟨25, _⟩ => ⟨S6400000x16, .f32⟩
  | .local _ .vmem, ⟨0, _⟩ => ⟨S8000x3, .f32⟩
  | .local _ .vmem, ⟨1, _⟩ => ⟨S8000x3, .f32⟩
  | .local _ .vmem, ⟨2, _⟩ => ⟨S8000x16, .f32⟩
  | .local _ .vmem, ⟨3, _⟩ => ⟨S8000x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_0_0 : S2x6400000.Slices ![0, 0] S1x6400000
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  slices_S8000x3_o0_0_S8000x1 : S8000x3.Slices ![0, 0] S8000x1
  shapeCasts_S8000x1_S8000 : S8000x1.ShapeCasts S8000
  slices_S8000x3_o0_1_S8000x1 : S8000x3.Slices ![0, 1] S8000x1
  slices_S8000x3_o0_2_S8000x1 : S8000x3.Slices ![0, 2] S8000x1
  shapeCasts_S8000_S8000x1 : S8000.ShapeCasts S8000x1
  concatenates_S8000x1_S8000x1_S8000x1_S8000x1_S8000x1_S8000x1_S8000x1_S8000x1_S8000x1_S8000x1_S8000x1_S8000x1_S8000x1_S8000x1_S8000x1_S8000x1_S8000x16_d1 : Shape.Concatenates [S8000x1, S8000x1, S8000x1, S8000x1, S8000x1, S8000x1, S8000x1, S8000x1, S8000x1, S8000x1, S8000x1, S8000x1, S8000x1, S8000x1, S8000x1, S8000x1] S8000x16 1
  inb_S8000x16_S8000x16_0_0 : ∀ a, (![0, 0] : Fin 2 → Nat) a + S8000x16.size a ≤ S8000x16.size a
  h_S8000x16 : 0 < S8000x16.numel
  gather_S100000x3_S6400000x1_S6400000x3_1_0_n_n_0_1_13_wf : GatherDims.WF S100000x3 S6400000x1 S6400000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S6400000x3.size a
  hwx0_0 : ∀ i : grid0.Coords, EltTy.bits .f32 = 32 ∨ (Rect.block (s := S6400000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S6400000x16.size a
  hwx0_1 : ∀ i : grid0.Coords, EltTy.bits .f32 = 32 ∨ (Rect.block (s := S6400000x16) S8000x16.size (cc0_transform_1 i) (hinb0_1 i)).WholeWords (EltTy.packing .f32)

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

abbrev win0_0 : Pipeline.Window sig grid0 :=
  Pipeline.Window.ofSpec (Memref.whole main_v18) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x6400000 : Shape := ⟨2, ![2, 6400000]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S100000x3, .f32⟩
  | 1 => ⟨S2x6400000, .i32⟩
  | 2 => ⟨S16, .f32⟩
  | 3 => ⟨S1x6400000, .i32⟩
  | 4 => ⟨S6400000, .i32⟩
  | 5 => ⟨S_, .i32⟩
  | 6 => ⟨S6400000, .i32⟩
  | 7 => ⟨S6400000, .i1⟩
  | 8 => ⟨S_, .i32⟩
  | 9 => ⟨S6400000, .i32⟩
  | 10 => ⟨S6400000, .i32⟩
  | 11 => ⟨S6400000, .i32⟩
  | 12 => ⟨S6400000x1, .i32⟩
  | 13 => ⟨S6400000x3, .f32⟩
  | 14 => ⟨S1x6400000, .i32⟩
  | 15 => ⟨S6400000, .i32⟩
  | 16 => ⟨S_, .i32⟩
  | 17 => ⟨S6400000, .i32⟩
  | 18 => ⟨S6400000, .i1⟩
  | 19 => ⟨S_, .i32⟩
  | 20 => ⟨S6400000, .i32⟩
  | 21 => ⟨S6400000, .i32⟩
  | 22 => ⟨S6400000, .i32⟩
  | 23 => ⟨S6400000x1, .i32⟩
  | 24 => ⟨S6400000x3, .f32⟩
  | 25 => ⟨S6400000x3, .f32⟩
  | 26 => ⟨S6400000x3, .f32⟩
  | 27 => ⟨S_, .f32⟩
  | 28 => ⟨S6400000, .f32⟩
  | 29 => ⟨S6400000x1, .f32⟩
  | 30 => ⟨S6400000x1, .f32⟩
  | 31 => ⟨S_, .f32⟩
  | 32 => ⟨S6400000x1, .f32⟩
  | 33 => ⟨S6400000x1, .f32⟩
  | 34 => ⟨S6400000x3, .f32⟩
  | 35 => ⟨S6400000x3, .f32⟩
  | 36 => ⟨S6400000x1, .f32⟩
  | 37 => ⟨S6400000, .f32⟩
  | 38 => ⟨S6400000x1, .f32⟩
  | 39 => ⟨S6400000, .f32⟩
  | 40 => ⟨S6400000x1, .f32⟩
  | 41 => ⟨S6400000, .f32⟩
  | 42 => ⟨S_, .f32⟩
  | 43 => ⟨S6400000, .f32⟩
  | 44 => ⟨S_, .f32⟩
  | 45 => ⟨S6400000, .f32⟩
  | 46 => ⟨S6400000, .f32⟩
  | 47 => ⟨S6400000, .f32⟩
  | 48 => ⟨S_, .f32⟩
  | 49 => ⟨S6400000, .f32⟩
  | 50 => ⟨S6400000, .f32⟩
  | 51 => ⟨S6400000, .f32⟩
  | 52 => ⟨S6400000, .f32⟩
  | 53 => ⟨S6400000, .f32⟩
  | 54 => ⟨S6400000, .f32⟩
  | 55 => ⟨S6400000, .f32⟩
  | 56 => ⟨S_, .f32⟩
  | 57 => ⟨S6400000, .f32⟩
  | 58 => ⟨S6400000, .f32⟩
  | 59 => ⟨S6400000, .f32⟩
  | 60 => ⟨S_, .f32⟩
  | 61 => ⟨S6400000, .f32⟩
  | 62 => ⟨S6400000, .f32⟩
  | 63 => ⟨S6400000, .f32⟩
  | 64 => ⟨S6400000, .f32⟩
  | 65 => ⟨S6400000, .f32⟩
  | 66 => ⟨S6400000, .f32⟩
  | 67 => ⟨S_, .f32⟩
  | 68 => ⟨S6400000, .f32⟩
  | 69 => ⟨S6400000, .f32⟩
  | 70 => ⟨S6400000, .f32⟩
  | 71 => ⟨S6400000, .f32⟩
  | 72 => ⟨S6400000, .f32⟩
  | 73 => ⟨S_, .f32⟩
  | 74 => ⟨S6400000, .f32⟩
  | 75 => ⟨S6400000, .f32⟩
  | 76 => ⟨S_, .f32⟩
  | 77 => ⟨S6400000, .f32⟩
  | 78 => ⟨S6400000, .f32⟩
  | 79 => ⟨S6400000, .f32⟩
  | 80 => ⟨S_, .f32⟩
  | 81 => ⟨S6400000, .f32⟩
  | 82 => ⟨S6400000, .f32⟩
  | 83 => ⟨S6400000, .f32⟩
  | 84 => ⟨S_, .f32⟩
  | 85 => ⟨S6400000, .f32⟩
  | 86 => ⟨S6400000, .f32⟩
  | 87 => ⟨S6400000, .f32⟩
  | 88 => ⟨S_, .f32⟩
  | 89 => ⟨S6400000, .f32⟩
  | 90 => ⟨S6400000, .f32⟩
  | 91 => ⟨S_, .f32⟩
  | 92 => ⟨S6400000, .f32⟩
  | 93 => ⟨S6400000, .f32⟩
  | 94 => ⟨S_, .f32⟩
  | 95 => ⟨S6400000, .f32⟩
  | 96 => ⟨S6400000, .f32⟩
  | 97 => ⟨S6400000, .f32⟩
  | 98 => ⟨S6400000, .f32⟩
  | 99 => ⟨S_, .f32⟩
  | 100 => ⟨S6400000, .f32⟩
  | 101 => ⟨S6400000, .f32⟩
  | 102 => ⟨S_, .f32⟩
  | 103 => ⟨S6400000, .f32⟩
  | 104 => ⟨S6400000, .f32⟩
  | 105 => ⟨S6400000, .f32⟩
  | 106 => ⟨S6400000, .f32⟩
  | 107 => ⟨S_, .f32⟩
  | 108 => ⟨S6400000, .f32⟩
  | 109 => ⟨S6400000, .f32⟩
  | 110 => ⟨S6400000, .f32⟩
  | 111 => ⟨S6400000, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S6400000x1, .f32⟩
  | 118 => ⟨S6400000x1, .f32⟩
  | 119 => ⟨S6400000x1, .f32⟩
  | 120 => ⟨S6400000x1, .f32⟩
  | 121 => ⟨S6400000x1, .f32⟩
  | 122 => ⟨S6400000x1, .f32⟩
  | 123 => ⟨S6400000x1, .f32⟩
  | 124 => ⟨S6400000x1, .f32⟩
  | 125 => ⟨S6400000x1, .f32⟩
  | 126 => ⟨S6400000x1, .f32⟩
  | 127 => ⟨S6400000x1, .f32⟩
  | _ => ⟨S100000x3, .f32⟩

abbrev hbmTy0_1 (i : Nat) : BufTy := match i % 128 with
  | 0 => ⟨S6400000x1, .f32⟩
  | 1 => ⟨S6400000x1, .f32⟩
  | 2 => ⟨S6400000x1, .f32⟩
  | 3 => ⟨S6400000x1, .f32⟩
  | 4 => ⟨S6400000x1, .f32⟩
  | 5 => ⟨S6400000x16, .f32⟩
  | 6 => ⟨S1x16, .f32⟩
  | 7 => ⟨S6400000x16, .f32⟩
  | 8 => ⟨S6400000x16, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_20 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]

class Facts₀ : Prop where
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_0_0 : S2x6400000.Slices ![0, 0] S1x6400000
  reducesTo_S6400000x3_S6400000_d1 : S6400000x3.ReducesTo [1] S6400000
  h_S_ : 0 < S_.numel
  bcast_S_S6400000x1 : S_.BroadcastsInDim S6400000x1 (![] : Fin 0 → Fin S6400000x1.rank)
  bcast_S6400000x1_S6400000x3_0_1 : S6400000x1.BroadcastsInDim S6400000x3 (![0, 1] : Fin 2 → Fin S6400000x3.rank)
  slices_S6400000x3_S6400000x1_0_0 : S6400000x3.Slices ![0, 0] S6400000x1
  shapeCasts_S6400000x1_S6400000 : S6400000x1.ShapeCasts S6400000
  slices_S6400000x3_S6400000x1_0_1 : S6400000x3.Slices ![0, 1] S6400000x1
  slices_S6400000x3_S6400000x1_0_2 : S6400000x3.Slices ![0, 2] S6400000x1
  concatenates_S6400000x1_S6400000x1_S6400000x1_S6400000x1_S6400000x1_S6400000x1_S6400000x1_S6400000x1_S6400000x1_S6400000x1_S6400000x1_S6400000x1_S6400000x1_S6400000x1_S6400000x1_S6400000x1_S6400000x16_d1 : Shape.Concatenates [S6400000x1, S6400000x1, S6400000x1, S6400000x1, S6400000x1, S6400000x1, S6400000x1, S6400000x1, S6400000x1, S6400000x1, S6400000x1, S6400000x1, S6400000x1, S6400000x1, S6400000x1, S6400000x1] S6400000x16 1
  bcast_S16_S1x16_1 : S16.BroadcastsInDim S1x16 (![1] : Fin 1 → Fin S1x16.rank)
  bcast_S1x16_S6400000x16_0_1 : S1x16.BroadcastsInDim S6400000x16 (![0, 1] : Fin 2 → Fin S6400000x16.rank)
  gather_S100000x3_S6400000x1_S6400000x3_1_0_n_n_0_1_13_wf : GatherDims.WF S100000x3 S6400000x1 S6400000x3 [1] [0] [] [0] [] 1 ![1, 3]

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

class Facts : Prop extends Facts₀ where

variable [Facts]
-- ==== Proof.Sph.lean ====
/-
  One edge's row of real spherical harmonics up to degree 3, as functions on the extended reals.

  An edge vector (a, b, c) is first scaled to the unit sphere: with n = max (√(a² + b² + c²)) ε, the unit vector is
  (a, b, c) / n.  One program writes the quotient as a product with the reciprocal, a · (1 / n); the other
  divides, a / n.  Because ε > 0 the norm n is never zero, and away from zero the quotient on the extended reals
  IS the product with the inverse (1 / n = 1 · n⁻¹ = n⁻¹), so the two agree at every extended real — the infinities
  included, no finiteness is used.  One program adds the three squares as (a² + b²) + c², the other as
  0 + (a² + b² + c²) from a zero start: the same sum.

  The sixteen entries of the row are polynomials `raw j` in the unit vector (x, y, z), each scaled by √(2l+1) for
  its degree l: one program multiplies on the left (coef j · raw j), the other on the right by a table entry
  (raw j · coef j).  Multiplication on the extended reals is commutative, so these agree too.
-/
import Idealize.ShloMosaic.PureOps.Ideal
import Mathlib.Algebra.BigOperators.Fin

noncomputable section

namespace Cert.Sph

open Idealize.ShloMosaic

/-! ## The constants, as the float patterns both programs spell -/

abbrev zero : EReal := Ideal.ofBits .f32 0x00000000#32
abbrev one : EReal := Ideal.ofBits .f32 0x3F800000#32
/-- ε, the floor of the norm (the f32 nearest 1e-12). -/
abbrev eps : EReal := Ideal.ofBits .f32 0x2B8CBCCC#32
/-- √3 -/
abbrev s3 : EReal := Ideal.ofBits .f32 0x3FDDB3D7#32
abbrev half : EReal := Ideal.ofBits .f32 0x3F000000#32
/-- √3 / 2 -/
abbrev h3 : EReal := Ideal.ofBits .f32 0x3F5DB3D7#32
/-- √5 -/
abbrev c2 : EReal := Ideal.ofBits .f32 0x400F1BBD#32
/-- √42 / 6 -/
abbrev a42 : EReal := Ideal.ofBits .f32 0x3F8A417C#32
/-- √7 -/
abbrev c3 : EReal := Ideal.ofBits .f32 0x402953FD#32
abbrev four : EReal := Ideal.ofBits .f32 0x40800000#32
/-- √168 / 8 -/
abbrev b168 : EReal := Ideal.ofBits .f32 0x3FCF623A#32
/-- √7 / 2 -/
abbrev h7 : EReal := Ideal.ofBits .f32 0x3FA953FD#32
abbrev two : EReal := Ideal.ofBits .f32 0x40000000#32
abbrev three : EReal := Ideal.ofBits .f32 0x40400000#32

/-! ## The polynomials in a unit vector (x, y, z), as both programs associate them -/

/-- √3 · x · z -/
def r20 (x z : EReal) : EReal := s3 * x * z
/-- (√3 / 2) · (z² − x²) -/
def r24 (x z : EReal) : EReal := h3 * (z * z - x * x)
/-- x² + z² -/
def xz (x z : EReal) : EReal := x * x + z * z

/-- Entry `j` of the row before its degree's scale. -/
def raw : Fin 16 → EReal → EReal → EReal → EReal
  | ⟨0, _⟩ => fun _ _ _ => one
  | ⟨1, _⟩ => fun x _ _ => x
  | ⟨2, _⟩ => fun _ y _ => y
  | ⟨3, _⟩ => fun _ _ z => z
  | ⟨4, _⟩ => fun x _ z => r20 x z
  | ⟨5, _⟩ => fun x y _ => s3 * x * y
  | ⟨6, _⟩ => fun x y z => y * y - half * xz x z
  | ⟨7, _⟩ => fun _ y z => s3 * y * z
  | ⟨8, _⟩ => fun x _ z => r24 x z
  | ⟨9, _⟩ => fun x _ z => a42 * (r20 x z * z + r24 x z * x)
  | ⟨10, _⟩ => fun x y z => c3 * r20 x z * y
  | ⟨11, _⟩ => fun x y z => b168 * (four * (y * y) - xz x z) * x
  | ⟨12, _⟩ => fun x y z => h7 * y * (two * (y * y) - three * xz x z)
  | ⟨13, _⟩ => fun x y z => b168 * z * (four * (y * y) - xz x z)
  | ⟨14, _⟩ => fun x y z => c3 * r24 x z * y
  | ⟨15, _⟩ => fun x _ z => a42 * (r24 x z * z - r20 x z * x)
  | ⟨_ + 16, h⟩ => absurd h (Nat.not_lt.2 (Nat.le_add_left _ _))

/-- The scale √(2l+1) of entry `j`'s degree l. -/
def coef : Fin 16 → EReal
  | ⟨0, _⟩ => one
  | ⟨1, _⟩ => s3 | ⟨2, _⟩ => s3 | ⟨3, _⟩ => s3
  | ⟨4, _⟩ => c2 | ⟨5, _⟩ => c2 | ⟨6, _⟩ => c2 | ⟨7, _⟩ => c2 | ⟨8, _⟩ => c2
  | ⟨9, _⟩ => c3 | ⟨10, _⟩ => c3 | ⟨11, _⟩ => c3 | ⟨12, _⟩ => c3 | ⟨13, _⟩ => c3 | ⟨14, _⟩ => c3 | ⟨15, _⟩ => c3
  | ⟨_ + 16, h⟩ => absurd h (Nat.not_lt.2 (Nat.le_add_left _ _))

/-! ## The two spellings of one row -/

/-- The norm's floor-clamped value from the squares added pairwise. -/
def nrmK (a b c : EReal) : EReal := max (Ideal.sqrt (a * a + b * b + c * c)) eps

/-- The reciprocal of that norm. -/
def invK (a b c : EReal) : EReal := Ideal.div one (nrmK a b c)

/-- Entry `j` with the unit vector as products with the reciprocal norm and the scale on the left. -/
def kerElt (j : Fin 16) (a b c : EReal) : EReal :=
  coef j * raw j (a * invK a b c) (b * invK a b c) (c * invK a b c)

/-- The norm's floor-clamped value from the squares summed from a zero start. -/
def nrmR (v : Fin 3 → EReal) : EReal := max (Ideal.sqrt (zero + ∑ k : Fin 3, v k * v k)) eps

/-- Entry `j` with the unit vector as quotients by the norm and the scale on the right. -/
def refElt (j : Fin 16) (v : Fin 3 → EReal) : EReal :=
  raw j (Ideal.div (v 0) (nrmR v)) (Ideal.div (v 1) (nrmR v)) (Ideal.div (v 2) (nrmR v)) * coef j

/-! ## They agree -/

/-- ε is a positive real: the pattern's sign bit is clear and its exponent field is neither all zeros with a zero
    fraction nor all ones. -/
theorem eps_pos : 0 < eps := by
  simp [Ideal.ofBits, Ideal.ieee, -EReal.coe_mul]

/-- So the clamped norm is never zero, whatever sits under the maximum. -/
theorem max_eps_ne_zero (s : EReal) : max s eps ≠ 0 :=
  (lt_of_lt_of_le eps_pos (le_max_right s eps)).ne'

theorem nrmK_ne_zero (a b c : EReal) : nrmK a b c ≠ 0 := max_eps_ne_zero _

/-- Away from zero a quotient is the product with the reciprocal: x · (1 / n) = x / n on the extended reals. -/
theorem mul_div_one {n : EReal} (hn : n ≠ 0) (x : EReal) : x * Ideal.div one n = Ideal.div x n := by
  have h1 : one = 1 := by
    simp [Ideal.ofBits, Ideal.ieee, -EReal.coe_mul]; norm_num
  unfold Ideal.div
  rw [if_neg hn, if_neg hn, h1, one_mul]

/-- The two sums of the three squares are one. -/
theorem sum_sq (v : Fin 3 → EReal) : zero + ∑ k : Fin 3, v k * v k = v 0 * v 0 + v 1 * v 1 + v 2 * v 2 := by
  have h0 : zero = 0 := by simp [Ideal.ofBits, Ideal.ieee]
  rw [h0, zero_add, Fin.sum_univ_three]

theorem nrmR_eq (v : Fin 3 → EReal) : nrmR v = nrmK (v 0) (v 1) (v 2) := by
  unfold nrmR nrmK; rw [sum_sq]

/-- THE LAW: the two spellings of entry `j` are equal at every extended real. -/
theorem refElt_eq_kerElt (j : Fin 16) (v : Fin 3 → EReal) : refElt j v = kerElt j (v 0) (v 1) (v 2) := by
  unfold refElt kerElt invK
  rw [nrmR_eq, mul_div_one (nrmK_ne_zero _ _ _) (v 0), mul_div_one (nrmK_ne_zero _ _ _) (v 1),
    mul_div_one (nrmK_ne_zero _ _ _) (v 2)]
  exact mul_comm _ _

end Cert.Sph

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.KerPay.lean ====
/-
  What the kernel's body stores, entry by entry.

  The body loads a block of 8000 edge vectors (8000 × 3), takes its three coordinate columns, computes sixteen vectors of
  8000 entries by pointwise arithmetic, makes each a column (8000 × 1) and lays the sixteen side by side (8000 × 16).  So the
  entry at row r, column j of what it stores is the j-th vector at r, and that is entry j of the spherical-harmonic row
  (`Sph.kerElt j`) of the block's r-th edge vector: every pointwise operation on the extended reals reads index by index, and
  the layout steps only move entries.
-/
import proofs.«119992_j59588376265204_2_alg».proof.Proof.Gen.KernelIdeal.Frame
import proofs.«119992_j59588376265204_2_alg».proof.Proof.Sph
import proofs.«119992_j59588376265204_2_alg».proof.Proof.LibColumnReads

noncomputable section

namespace Cert.KernelIdeal.KerPay

open Cert.KernelIdeal Cert.KernelIdeal.Gen Idealize.ShloMosaic Idealize.ShloMosaic.ValueIdx Cert.Lib.ColumnReads Cert.Sph

/-! ## The three coordinate columns of a loaded block -/

/-- The first column (the x coordinates) at row r is the block at (r, 0). -/
theorem colx (P0 : Vec Ideal S8000x3 .f32) (r : Fin 8000) : k0_pay5 P0 (ix1 r) = P0 (ix2 r (0 : Fin 3)) := by
  unfold k0_pay5 k0_pay4
  dsimp only
  refine (shapeCast_a1_a_apply _ _ r).trans ?_
  refine (slice_column_apply 0 (by decide) _ _ r 0).trans ?_
  rw [shapeCast_self]
  rfl

/-- The second column (y) at row r is the block at (r, 1). -/
theorem coly (P0 : Vec Ideal S8000x3 .f32) (r : Fin 8000) : k0_pay6 P0 (ix1 r) = P0 (ix2 r (1 : Fin 3)) := by
  unfold k0_pay6 k0_pay4
  dsimp only
  refine (shapeCast_a1_a_apply _ _ r).trans ?_
  refine (slice_column_apply 1 (by decide) _ _ r 0).trans ?_
  rw [shapeCast_self]
  rfl

/-- The third column (z) at row r is the block at (r, 2). -/
theorem colz (P0 : Vec Ideal S8000x3 .f32) (r : Fin 8000) : k0_pay7 P0 (ix1 r) = P0 (ix2 r (2 : Fin 3)) := by
  unfold k0_pay7 k0_pay4
  dsimp only
  refine (shapeCast_a1_a_apply _ _ r).trans ?_
  refine (slice_column_apply 2 (by decide) _ _ r 0).trans ?_
  rw [shapeCast_self]
  rfl

/-! ## The sixteen vectors -/

/-- The sixteen vectors the body lays side by side, in order, as vectors of one entry per edge of the block. -/
def cols (P0 : Vec Ideal S8000x3 .f32) : Fin 16 → FVec Ideal S8000 .f32
  | ⟨0, _⟩ => k0_pay12 (F := Ideal)
  | ⟨1, _⟩ => k0_pay13 P0
  | ⟨2, _⟩ => k0_pay14 P0
  | ⟨3, _⟩ => k0_pay15 P0
  | ⟨4, _⟩ => k0_pay23 (k0_pay16 P0)
  | ⟨5, _⟩ => k0_pay24 (k0_pay17 P0)
  | ⟨6, _⟩ => k0_pay25 (k0_pay20 P0)
  | ⟨7, _⟩ => k0_pay26 (k0_pay21 P0)
  | ⟨8, _⟩ => k0_pay27 (k0_pay9 P0) (k0_pay11 P0)
  | ⟨9, _⟩ => mulf (broadcast S8000 (Scalar.ofBits .f32 0x402953FD#32)) (k0_pay28 (k0_pay9 P0) (k0_pay11 P0) (k0_pay16 P0))
  | ⟨10, _⟩ => mulf (broadcast S8000 (Scalar.ofBits .f32 0x402953FD#32)) (k0_pay29 (k0_pay10 P0) (k0_pay16 P0))
  | ⟨11, _⟩ => mulf (broadcast S8000 (Scalar.ofBits .f32 0x402953FD#32)) (k0_pay30 (k0_pay9 P0) (k0_pay18 P0) (k0_pay19 P0))
  | ⟨12, _⟩ => mulf (broadcast S8000 (Scalar.ofBits .f32 0x402953FD#32)) (k0_pay31 (k0_pay10 P0) (k0_pay18 P0) (k0_pay19 P0))
  | ⟨13, _⟩ => mulf (broadcast S8000 (Scalar.ofBits .f32 0x402953FD#32)) (k0_pay32 (k0_pay11 P0) (k0_pay18 P0) (k0_pay19 P0))
  | ⟨14, _⟩ => mulf (broadcast S8000 (Scalar.ofBits .f32 0x402953FD#32)) (k0_pay1 (k0_pay10 P0) (k0_pay22 (k0_pay9 P0) (k0_pay11 P0)) (k0_pay33 (F := Ideal)))
  | ⟨15, _⟩ => mulf (broadcast S8000 (Scalar.ofBits .f32 0x402953FD#32)) (mulf (broadcast S8000 (Scalar.ofBits .f32 0x3F8A417C#32)) (k0_pay2 (k0_pay9 P0) (k0_pay11 P0) (k0_pay16 P0) (k0_pay22 (k0_pay9 P0) (k0_pay11 P0))))
  | ⟨_ + 16, h⟩ => absurd h (Nat.not_lt.2 (Nat.le_add_left _ _))

/-- Vector j at row r is entry j of the row of the edge vector whose coordinates the three columns hold at r: the pointwise
    operations read index by index, and the arithmetic is `Sph.kerElt`'s, association for association. -/
theorem cols_apply (P0 : Vec Ideal S8000x3 .f32) (r : Fin 8000) (j : Fin 16) :
    cols P0 j (ix1 r) = kerElt j (k0_pay5 P0 (ix1 r)) (k0_pay6 P0 (ix1 r)) (k0_pay7 P0 (ix1 r)) := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => exact absurd h (Nat.not_lt.2 (Nat.le_add_left _ _))

/-! ## The stored block -/

/-- THE STORED BLOCK, entry by entry: at (r, j), entry j of the row of the loaded block's r-th edge vector. -/
theorem payload_apply (P0 : Vec Ideal S8000x3 .f32) (r : Fin 8000) (j : Fin 16) :
    k0_pay3 (k0_pay12 (F := Ideal)) (k0_pay13 P0) (k0_pay14 P0) (k0_pay15 P0) (k0_pay23 (k0_pay16 P0)) (k0_pay24 (k0_pay17 P0)) (k0_pay25 (k0_pay20 P0)) (k0_pay26 (k0_pay21 P0)) (k0_pay27 (k0_pay9 P0) (k0_pay11 P0)) (k0_pay28 (k0_pay9 P0) (k0_pay11 P0) (k0_pay16 P0)) (k0_pay29 (k0_pay10 P0) (k0_pay16 P0)) (k0_pay30 (k0_pay9 P0) (k0_pay18 P0) (k0_pay19 P0)) (k0_pay31 (k0_pay10 P0) (k0_pay18 P0) (k0_pay19 P0)) (k0_pay32 (k0_pay11 P0) (k0_pay18 P0) (k0_pay19 P0)) (k0_pay1 (k0_pay10 P0) (k0_pay22 (k0_pay9 P0) (k0_pay11 P0)) (k0_pay33 (F := Ideal))) (k0_pay2 (k0_pay9 P0) (k0_pay11 P0) (k0_pay16 P0) (k0_pay22 (k0_pay9 P0) (k0_pay11 P0))) (ix2 r j)
      = kerElt j (P0 (ix2 r (0 : Fin 3))) (P0 (ix2 r (1 : Fin 3))) (P0 (ix2 r (2 : Fin 3))) := by
  rw [← colx P0 r, ← coly P0 r, ← colz P0 r, ← cols_apply P0 r j]
  unfold k0_pay3
  show concatenate S8000x16 (1 : Fin 2) (List.ofFn fun n : Fin 16 =>
      (⟨S8000x1, shapeCast S8000x1 (cols P0 n) shapeCasts_S8000_S8000x1⟩ : (s : Shape) × (s.Idx → EReal))) _ (ix2 r j) = _
  refine (concat_columns_apply (fun n : Fin 16 => shapeCast S8000x1 (cols P0 n) shapeCasts_S8000_S8000x1) _ r j).trans ?_
  exact shapeCast_a_a1_apply _ _ r 0

/-- What the body leaves in the output's staging buffer from a loaded block `x0`, entry by entry: its one store covers the
    whole buffer, so the buffer holds the stored block. -/
theorem out_apply (x0 : Vec Ideal S8000x3 .f32) (r : Fin 8000) (j : Fin 16) :
    out0_1 x0 (ix2 r j) = kerElt j (x0 (ix2 r (0 : Fin 3))) (x0 (ix2 r (1 : Fin 3))) (x0 (ix2 r (2 : Fin 3))) := by
  have hz : (![0, 0] : Fin 2 → Nat) = fun _ => 0 := funext fun a => by fin_cases a <;> rfl
  unfold out0_1
  rw [View.canon_unit_zero hz]
  simp only [View.ld_unit_zero (S := S8000x3) hz]
  exact payload_apply x0 r j

end Cert.KernelIdeal.KerPay

end
-- ==== Proof.SphArr.lean ====
/-
  The whole result as one function of the array of edge vectors: row e, column j is entry j of the spherical-harmonic
  row of edge vector e (its three coordinates are row e of the 6400000 × 3 array).
-/
import proofs.«119992_j59588376265204_2_alg».proof.Proof.Sph
import Idealize.ShloMosaic.Lib.ValueIdx

noncomputable section

namespace Cert.Sph

open Idealize.ShloMosaic Idealize.ShloMosaic.ValueIdx

/-- The 6400000 × 16 array of rows, from the 6400000 × 3 array of edge vectors. -/
def shArr (ev : (⟨2, ![6400000, 3]⟩ : Shape).Idx → EReal) : (⟨2, ![6400000, 16]⟩ : Shape).Idx → EReal :=
  fun i => kerElt (i 1) (ev (ix2 (i 0) (0 : Fin 3))) (ev (ix2 (i 0) (1 : Fin 3))) (ev (ix2 (i 0) (2 : Fin 3)))

/-- Read at coordinates. -/
theorem shArr_apply (ev : (⟨2, ![6400000, 3]⟩ : Shape).Idx → EReal) (e : Fin 6400000) (j : Fin 16) :
    shArr ev (ix2 e j) = kerElt j (ev (ix2 e (0 : Fin 3))) (ev (ix2 e (1 : Fin 3))) (ev (ix2 e (2 : Fin 3))) := rfl

end Cert.Sph

end
-- ==== Proof.KerVal.lean ====
/-
  The kernel's result array, whole.

  The grid has 800 points; point t loads rows 8000·t … 8000·t + 7999 of the edge vectors (all three columns) and writes back
  the same rows of the result (all sixteen columns).  What it writes back at row r of its block, column j, is entry j of the
  spherical-harmonic row of edge vector 8000·t + r (the stored block, entry by entry).  Every row of the result lies in
  exactly the block of the point t = row / 8000, and every point writes back, so after the run the result array is the
  whole-array function `Sph.shArr` of the edge vectors as the region found them.
-/
import proofs.«119992_j59588376265204_2_alg».proof.Proof.ValueP
import proofs.«119992_j59588376265204_2_alg».proof.Proof.KerPay
import proofs.«119992_j59588376265204_2_alg».proof.Proof.SphArr

noncomputable section

namespace Cert.KernelIdeal.KerVal

open Cert.KernelIdeal Cert.KernelIdeal.Gen Cert.KernelIdeal.ValueP Cert.KernelIdeal.KerPay
open Idealize.ShloMosaic Idealize.ShloMosaic.TcCoe Idealize.SL.Sem Idealize.ShloMosaic.ValueIdx Cert.Sph
open Idealize.ShloMosaic.Pipeline (Dat)

variable (m : (ℓ : Loc nD τ sig) → Buf (Elt Ideal) ℓ) (ρ : Dev nD → PrngReg)

/-- The printed index maps, decided over the 800 points: both windows' block at point t is block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r of point t's block is row 8000·t + r of the arrays. -/
def row (t : Fin cfg0.N) (r : Fin 8000) : Fin 6400000 :=
  ⟨t.val * 8000 + r.val, by have ht := t.isLt; have hN : cfg0.N = 800 := N_0; have hr := r.isLt; omega⟩

/-- WHAT POINT t WRITES BACK is block t of `shArr` of the edge vectors as the region finds them. -/
theorem flushed_eq (c : Dev nD) (t : Fin cfg0.N) :
    (dats m 0 c).flushed 1 t = ((cfg0.win 1).blk t).view.read (Elt Ideal) (shArr (V m c main_v18)) := by
  rw [flushed1]
  obtain ⟨e0, e1, e2, e3⟩ := idx_facts t
  show (fun y : S8000x16.Idx => out0_1 (iblk m c 0 t) y)
    = fun y : S8000x16.Idx => shArr (V m c main_v18) (((cfg0.win 1).blk t).view.emb y)
  funext y
  obtain ⟨r, j, rfl⟩ : ∃ (r : Fin 8000) (j : Fin 16), y = ix2 r j := ⟨y 0, y 1, eq_ix2 y⟩
  refine (out_apply (iblk m c 0 t) r j).trans ?_
  have hin : ∀ k : Fin 3, iblk m c 0 t (ix2 r k) = V m c main_v18 (ix2 (row t r) k) := by
    intro k
    show V m c main_v18 (((cfg0.win 0).blk t).view.emb (ix2 r k)) = V m c main_v18 (ix2 (row t r) k)
    refine congrArg (V m c main_v18) (funext fun a => Fin.ext ?_)
    match a with
    | ⟨0, _⟩ => show win0_0.index t (0 : Fin 2) * 8000 + 1 * r.val = t.val * 8000 + r.val; omega
    | ⟨1, _⟩ => show win0_0.index t (1 : Fin 2) * 3 + 1 * k.val = k.val; omega
  have hout : ((cfg0.win 1).blk t).view.emb (ix2 r j) = ix2 (row t r) j := by
    funext a; apply Fin.ext
    match a with
    | ⟨0, _⟩ => show win0_1.index t (0 : Fin 2) * 8000 + 1 * r.val = t.val * 8000 + r.val; omega
    | ⟨1, _⟩ => show win0_1.index t (1 : Fin 2) * 16 + 1 * j.val = j.val; omega
  rw [hin 0, hin 1, hin 2, hout]
  rfl

/-- An index of the result is in point t's block iff each coordinate is in the block's range on its axis. -/
theorem mem_blk (t : Fin cfg0.N) (i : S6400000x16.Idx) :
    i ∈ ((cfg0.win 1).blk t).view.set ↔ ∀ a : Fin 2, win0_1.index t a * S8000x16.size a ≤ (i a).val
      ∧ (i a).val < win0_1.index t a * S8000x16.size a + S8000x16.size a := by
  show i ∈ ((View.whole main_v19).slice (win0_1.rect t)).set ↔ _
  rw [View.set_slice_whole, Rect.mem_set_unit]
  exact Iff.rfl

/-- Every index of the result is in the block of the point its row's quotient by 8000 names, and that point writes back. -/
theorem cover (i : S6400000x16.Idx) :
    ∃ t : Fin cfg0.N, (cfg0.win 1).flush t = true ∧ i ∈ ((cfg0.win 1).blk t).view.set := by
  have hi0 : (i 0).val < 6400000 := (i 0).isLt
  have hi1 : (i 1).val < 16 := (i 1).isLt
  have hN : cfg0.N = 800 := N_0
  obtain ⟨t, ht⟩ : ∃ t : Fin cfg0.N, t.val = (i 0).val / 8000 := ⟨⟨(i 0).val / 8000, by omega⟩, rfl⟩
  obtain ⟨-, -, e2, e3⟩ := idx_facts t
  refine ⟨t, flush0_1 t, ?_⟩
  rw [mem_blk]
  intro a
  match a with
  | ⟨0, _⟩ =>
    show win0_1.index t (0 : Fin 2) * 8000 ≤ (i 0).val ∧ (i 0).val < win0_1.index t (0 : Fin 2) * 8000 + 8000
    omega
  | ⟨1, _⟩ =>
    show win0_1.index t (1 : Fin 2) * 16 ≤ (i 1).val ∧ (i 1).val < win0_1.index t (1 : Fin 2) * 16 + 16
    omega

/-- THE RESULT ARRAY after the run is `shArr` of the edge vectors as the region finds them. -/
theorem final (c : Dev nD) : (dats m 0 c).arrAt 1 cfg0.N = shArr (V m c main_v18) :=
  (dats m 0 c).arrAt_eq_of_cover 1 (shArr (V m c main_v18)) (fun t _ => flushed_eq m c t) (cover)

/-- The run, read: every weakly fair execution terminates with the result array at `shArr` of the edge vectors, the
    arguments unchanged. -/
theorem run : θ_run defs (onTc (τ := τ) (main (F := Ideal))) ⟨m, fun _ => 0, ρ⟩ fun r => ∀ c : Dev nD,
      r.2.mem ((c : Thread nD τ).loc main_v19) = shArr (V m c main_v18)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KerVal

end
-- ==== Proof.RefOps.lean ====
/- A table, no argument: the reference program's host operations as the printed program lists them, in order, the
   call of the norm function replaced by that function's five lines over the call's buffers, in four consecutive
   stretches; and for each stretch the inclusion of every line's buffers among the device's, one lemma per line. -/
import proofs.«119992_j59588376265204_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Stretch opsA (24 lines): the dense table of the sixteen scales, then the two gathers of the endpoints' positions and their difference, the edge vectors (main_v18). -/
abbrev opsA : List (HloOp τ sig (Elt F)) :=
  [ StableHlo.nullary main_cst (fun i => FloatOps.ofBits .f32 (lit0 (S16.rowMajor i))),
    StableHlo.unary main_arg1 main_v0 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v0 main_v1 rfl shapeCasts_S1x6400000_S6400000,
    StableHlo.nullary main_c (constantI S_ 32 0#32),
    StableHlo.unary main_c main_v2 (broadcastInDim S6400000 ![] bcast_S_S6400000 : (⟨S_, .i32⟩ : BufTy).Contents (Elt F) → (⟨S6400000, .i32⟩ : BufTy).Contents (Elt F)),
    StableHlo.binary main_v1 main_v2 main_v3 (cmpi .slt : (⟨S6400000, .i32⟩ : BufTy).Contents (Elt F) → (⟨S6400000, .i32⟩ : BufTy).Contents (Elt F) → (⟨S6400000, .i1⟩ : BufTy).Contents (Elt F)),
    StableHlo.nullary main_c_0 (constantI S_ 32 100000#32),
    StableHlo.unary main_c_0 main_v4 (broadcastInDim S6400000 ![] bcast_S_S6400000 : (⟨S_, .i32⟩ : BufTy).Contents (Elt F) → (⟨S6400000, .i32⟩ : BufTy).Contents (Elt F)),
    StableHlo.binary main_v1 main_v4 main_v5 (addi : (⟨S6400000, .i32⟩ : BufTy).Contents (Elt F) → (⟨S6400000, .i32⟩ : BufTy).Contents (Elt F) → (⟨S6400000, .i32⟩ : BufTy).Contents (Elt F)),
    StableHlo.ternary main_v3 main_v5 main_v1 main_v6 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v6 main_v7 (broadcastInDim S6400000x1 ![0] bcast_S6400000_S6400000x1_0 : (⟨S6400000, .i32⟩ : BufTy).Contents (Elt F) → (⟨S6400000x1, .i32⟩ : BufTy).Contents (Elt F)),
    StableHlo.binary main_arg0 main_v7 main_v8 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    StableHlo.unary main_arg1 main_v9 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v9 main_v10 rfl shapeCasts_S1x6400000_S6400000,
    StableHlo.nullary main_c_1 (constantI S_ 32 0#32),
    StableHlo.unary main_c_1 main_v11 (broadcastInDim S6400000 ![] bcast_S_S6400000 : (⟨S_, .i32⟩ : BufTy).Contents (Elt F) → (⟨S6400000, .i32⟩ : BufTy).Contents (Elt F)),
    StableHlo.binary main_v10 main_v11 main_v12 (cmpi .slt : (⟨S6400000, .i32⟩ : BufTy).Contents (Elt F) → (⟨S6400000, .i32⟩ : BufTy).Contents (Elt F) → (⟨S6400000, .i1⟩ : BufTy).Contents (Elt F)),
    StableHlo.nullary main_c_2 (constantI S_ 32 100000#32),
    StableHlo.unary main_c_2 main_v13 (broadcastInDim S6400000 ![] bcast_S_S6400000 : (⟨S_, .i32⟩ : BufTy).Contents (Elt F) → (⟨S6400000, .i32⟩ : BufTy).Contents (Elt F)),
    StableHlo.binary main_v10 main_v13 main_v14 (addi : (⟨S6400000, .i32⟩ : BufTy).Contents (Elt F) → (⟨S6400000, .i32⟩ : BufTy).Contents (Elt F) → (⟨S6400000, .i32⟩ : BufTy).Contents (Elt F)),
    StableHlo.ternary main_v12 main_v14 main_v10 main_v15 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v15 main_v16 (broadcastInDim S6400000x1 ![0] bcast_S6400000_S6400000x1_0 : (⟨S6400000, .i32⟩ : BufTy).Contents (Elt F) → (⟨S6400000x1, .i32⟩ : BufTy).Contents (Elt F)),
    StableHlo.binary main_arg0 main_v16 main_v17 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    StableHlo.binary main_v8 main_v17 main_v18 (subf : (⟨S6400000x3, .f32⟩ : BufTy).Contents (Elt F) → (⟨S6400000x3, .f32⟩ : BufTy).Contents (Elt F) → (⟨S6400000x3, .f32⟩ : BufTy).Contents (Elt F)) ]

theorem opsA_sub : (opsA : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Stretch opsB (16 lines): the norm of each edge vector (the called function's five lines), its floor, the quotient, and the unit vector's three coordinate columns (main_v25, main_v27, main_v29). -/
abbrev opsB : List (HloOp τ sig (Elt F)) :=
  [ StableHlo.TRef.binary (.of main_v18) (.of main_v18) main_call0.v0 mulf,
    StableHlo.TRef.nullary main_call0.cst (constant S_ .f32 0x00000000#32),
    StableHlo.TRef.binary main_call0.v0 main_call0.cst main_call0.v1 (fun x v => Host.reduceAdd x v reducesTo_S6400000x3_S6400000_d1 h_S_),
    StableHlo.TRef.unary main_call0.v1 main_call0.v2 (broadcastInDim S6400000x1 ![0] bcast_S6400000_S6400000x1_0),
    StableHlo.TRef.unary main_call0.v2 main_call0.v3 Host.sqrt,
    StableHlo.nullary main_cst_3 (constant S_ .f32 0x2B8CBCCC#32),
    StableHlo.unary main_cst_3 main_v20 (broadcastInDim S6400000x1 ![] bcast_S_S6400000x1 : (⟨S_, .f32⟩ : BufTy).Contents (Elt F) → (⟨S6400000x1, .f32⟩ : BufTy).Contents (Elt F)),
    StableHlo.binary main_v19 main_v20 main_v21 (maximumf : (⟨S6400000x1, .f32⟩ : BufTy).Contents (Elt F) → (⟨S6400000x1, .f32⟩ : BufTy).Contents (Elt F) → (⟨S6400000x1, .f32⟩ : BufTy).Contents (Elt F)),
    StableHlo.unary main_v21 main_v22 (broadcastInDim S6400000x3 ![0, 1] bcast_S6400000x1_S6400000x3_0_1 : (⟨S6400000x1, .f32⟩ : BufTy).Contents (Elt F) → (⟨S6400000x3, .f32⟩ : BufTy).Contents (Elt F)),
    StableHlo.binary main_v18 main_v22 main_v23 (Host.divf : (⟨S6400000x3, .f32⟩ : BufTy).Contents (Elt F) → (⟨S6400000x3, .f32⟩ : BufTy).Contents (Elt F) → (⟨S6400000x3, .f32⟩ : BufTy).Contents (Elt F)),
    StableHlo.unary main_v23 main_v24 ((extractStridedSlice S6400000x1 ![0, 0] · slices_S6400000x3_S6400000x1_0_0) : (⟨S6400000x3, .f32⟩ : BufTy).Contents (Elt F) → (⟨S6400000x1, .f32⟩ : BufTy).Contents (Elt F)),
    StableHlo.reshape main_v24 main_v25 rfl shapeCasts_S6400000x1_S6400000,
    StableHlo.unary main_v23 main_v26 ((extractStridedSlice S6400000x1 ![0, 1] · slices_S6400000x3_S6400000x1_0_1) : (⟨S6400000x3, .f32⟩ : BufTy).Contents (Elt F) → (⟨S6400000x1, .f32⟩ : BufTy).Contents (Elt F)),
    StableHlo.reshape main_v26 main_v27 rfl shapeCasts_S6400000x1_S6400000,
    StableHlo.unary main_v23 main_v28 ((extractStridedSlice S6400000x1 ![0, 2] · slices_S6400000x3_S6400000x1_0_2) : (⟨S6400000x3, .f32⟩ : BufTy).Contents (Elt F) → (⟨S6400000x1, .f32⟩ : BufTy).Contents (Elt F)),
    StableHlo.reshape main_v28 main_v29 rfl shapeCasts_S6400000x1_S6400000 ]

theorem opsB_sub : (opsB : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub ..⟩

/-- Stretch opsC (75 lines): the polynomials in the three columns: every line pointwise on vectors of one entry per edge. -/
abbrev opsC : List (HloOp τ sig (Elt F)) :=
  [ StableHlo.nullary main_cst_4 (constant S_ .f32 0x3F800000#32),
    StableHlo.unary main_cst_4 main_v30 (broadcastInDim S6400000 ![] bcast_S_S6400000 : (⟨S_, .f32⟩ : BufTy).Contents (Elt F) → (⟨S6400000, .f32⟩ : BufTy).Contents (Elt F)),
    StableHlo.nullary main_cst_5 (constant S_ .f32 0x3FDDB3D7#32),
    StableHlo.unary main_cst_5 main_v31 (broadcastInDim S6400000 ![] bcast_S_S6400000 : (⟨S_, .f32⟩ : BufTy).Contents (Elt F) → (⟨S6400000, .f32⟩ : BufTy).Contents (Elt F)),
    StableHlo.binary main_v31 main_v25 main_v32 (mulf : (⟨S6400000, .f32⟩ : BufTy).Contents (Elt F) → (⟨S6400000, .f32⟩ : BufTy).Contents (Elt F) → (⟨S6400000, .f32⟩ : BufTy).Contents (Elt F)),
    StableHlo.binary main_v32 main_v29 main_v33 (mulf : (⟨S6400000, .f32⟩ : BufTy).Contents (Elt F) → (⟨S6400000, .f32⟩ : BufTy).Contents (Elt F) → (⟨S6400000, .f32⟩ : BufTy).Contents (Elt F)),
    StableHlo.nullary main_cst_6 (constant S_ .f32 0x3FDDB3D7#32),
    StableHlo.unary main_cst_6 main_v34 (broadcastInDim S6400000 ![] bcast_S_S6400000 : (⟨S_, .f32⟩ : BufTy).Contents (Elt F) → (⟨S6400000, .f32⟩ : BufTy).Contents (Elt F)),
    StableHlo.binary main_v34 main_v25 main_v35 (mulf : (⟨S6400000, .f32⟩ : BufTy).Contents (Elt F) → (⟨S6400000, .f32⟩ : BufTy).Contents (Elt F) → (⟨S6400000, .f32⟩ : BufTy).Contents (Elt F)),
    StableHlo.binary main_v35 main_v27 main_v36 (mulf : (⟨S6400000, .f32⟩ : BufTy).Contents (Elt F) → (⟨S6400000, .f32⟩ : BufTy).Contents (Elt F) → (⟨S6400000, .f32⟩ : BufTy).Contents (Elt F)),
    StableHlo.binary main_v27 main_v27 main_v37 (mulf : (⟨S6400000, .f32⟩ : BufTy).Contents (Elt F) → (⟨S6400000, .f32⟩ : BufTy).Contents (Elt F) → (⟨S6400000, .f32⟩ : BufTy).Contents (Elt F)),
    StableHlo.binary main_v25 main_v25 main_v38 (mulf : (⟨S6400000, .f32⟩ : BufTy).Contents (Elt F) → (⟨S6400000, .f32⟩ : BufTy).Contents (Elt F) → (⟨S6400000, .f32⟩ : BufTy).Contents (Elt F)),
    StableHlo.binary main_v29 main_v29 main_v39 (mulf : (⟨S6400000, .f32⟩ : BufTy).Contents (Elt F) → (⟨S6400000, .f32⟩ : BufTy).Contents (Elt F) → (⟨S6400000, .f32⟩ : BufTy).Contents (Elt F)),
    StableHlo.binary main_v38 main_v39 main_v40 (addf : (⟨S6400000, .f32⟩ : BufTy).Contents (Elt F) → (⟨S6400000, .f32⟩ : BufTy).Contents (Elt F) → (⟨S6400000, .f32⟩ : BufTy).Contents (Elt F)),
    StableHlo.nullary main_cst_7 (constant S_ .f32 0x3F000000#32),
    StableHlo.unary main_cst_7 main_v41 (broadcastInDim S6400000 ![] bcast_S_S6400000 : (⟨S_, .f32⟩ : BufTy).Contents (Elt F) → (⟨S6400000, .f32⟩ : BufTy).Contents (Elt F)),
    StableHlo.binary main_v41 main_v40 main_v42 (mulf : (⟨S6400000, .f32⟩ : BufTy).Contents (Elt F) → (⟨S6400000, .f32⟩ : BufTy).Contents (Elt F) → (⟨S6400000, .f32⟩ : BufTy).Contents (Elt F)),
    StableHlo.binary main_v37 main_v42 main_v43 (subf : (⟨S6400000, .f32⟩ : BufTy).Contents (Elt F) → (⟨S6400000, .f32⟩ : BufTy).Contents (Elt F) → (⟨S6400000, .f32⟩ : BufTy).Contents (Elt F)),
    StableHlo.nullary main_cst_8 (constant S_ .f32 0x3FDDB3D7#32),
    StableHlo.unary main_cst_8 main_v44 (broadcastInDim S6400000 ![] bcast_S_S6400000 : (⟨S_, .f32⟩ : BufTy).Contents (Elt F) → (⟨S6400000, .f32⟩ : BufTy).Contents (Elt F)),
    StableHlo.binary main_v44 main_v27 main_v45 (mulf : (⟨S6400000, .f32⟩ : BufTy).Contents (Elt F) → (⟨S6400000, .f32⟩ : BufTy).Contents (Elt F) → (⟨S6400000, .f32⟩ : BufTy).Contents (Elt F)),
    StableHlo.binary main_v45 main_v29 main_v46 (mulf : (⟨S6400000, .f32⟩ : BufTy).Contents (Elt F) → (⟨S6400000, .f32⟩ : BufTy).Contents (Elt F) → (⟨S6400000, .f32⟩ : BufTy).Contents (Elt F)),
    StableHlo.binary main_v29 main_v29 main_v47 (mulf : (⟨S6400000, .f32⟩ : BufTy).Contents (Elt F) → (⟨S6400000, .f32⟩ : BufTy).Contents (Elt F) → (⟨S6400000, .f32⟩ : BufTy).Contents (Elt F)),
    StableHlo.binary main_v25 main_v25 main_v48 (mulf : (⟨S6400000, .f32⟩ : BufTy).Contents (Elt F) → (⟨S6400000, .f32⟩ : BufTy).Contents (Elt F) → (⟨S6400000, .f32⟩ : BufTy).Contents (Elt F)),
    StableHlo.binary main_v47 main_v48 main_v49 (subf : (⟨S6400000, .f32⟩ : BufTy).Contents (Elt F) → (⟨S6400000, .f32⟩ : BufTy).Contents (Elt F) → (⟨S6400000, .f32⟩ : BufTy).Contents (Elt F)),
    StableHlo.nullary main_cst_9 (constant S_ .f32 0x3F5DB3D7#32),
    StableHlo.unary main_cst_9 main_v50 (broadcastInDim S6400000 ![] bcast_S_S6400000 : (⟨S_, .f32⟩ : BufTy).Contents (Elt F) → (⟨S6400000, .f32⟩ : BufTy).Contents (Elt F)),
    StableHlo.binary main_v50 main_v49 main_v51 (mulf : (⟨S6400000, .f32⟩ : BufTy).Contents (Elt F) → (⟨S6400000, .f32⟩ : BufTy).Contents (Elt F) → (⟨S6400000, .f32⟩ : BufTy).Contents (Elt F)),
    StableHlo.binary main_v33 main_v29 main_v52 (mulf : (⟨S6400000, .f32⟩ : BufTy).Contents (Elt F) → (⟨S6400000, .f32⟩ : BufTy).Contents (Elt F) → (⟨S6400000, .f32⟩ : BufTy).Contents (Elt F)),
    StableHlo.binary main_v51 main_v25 main_v53 (mulf : (⟨S6400000, .f32⟩ : BufTy).Contents (Elt F) → (⟨S6400000, .f32⟩ : BufTy).Contents (Elt F) → (⟨S6400000, .f32⟩ : BufTy).Contents (Elt F)),
    StableHlo.binary main_v52 main_v53 main_v54 (addf : (⟨S6400000, .f32⟩ : BufTy).Contents (Elt F) → (⟨S6400000, .f32⟩ : BufTy).Contents (Elt F) → (⟨S6400000, .f32⟩ : BufTy).Contents (Elt F)),
    StableHlo.nullary main_cst_10 (constant S_ .f32 0x3F8A417C#32),
    StableHlo.unary main_cst_10 main_v55 (broadcastInDim S6400000 ![] bcast_S_S6400000 : (⟨S_, .f32⟩ : BufTy).Contents (Elt F) → (⟨S6400000, .f32⟩ : BufTy).Contents (Elt F)),
    StableHlo.binary main_v55 main_v54 main_v56 (mulf : (⟨S6400000, .f32⟩ : BufTy).Contents (Elt F) → (⟨S6400000, .f32⟩ : BufTy).Contents (Elt F) → (⟨S6400000, .f32⟩ : BufTy).Contents (Elt F)),
    StableHlo.nullary main_cst_11 (constant S_ .f32 0x402953FD#32),
    StableHlo.unary main_cst_11 main_v57 (broadcastInDim S6400000 ![] bcast_S_S6400000 : (⟨S_, .f32⟩ : BufTy).Contents (Elt F) → (⟨S6400000, .f32⟩ : BufTy).Contents (Elt F)),
    StableHlo.binary main_v57 main_v33 main_v58 (mulf : (⟨S6400000, .f32⟩ : BufTy).Contents (Elt F) → (⟨S6400000, .f32⟩ : BufTy).Contents (Elt F) → (⟨S6400000, .f32⟩ : BufTy).Contents (Elt F)),
    StableHlo.binary main_v58 main_v27 main_v59 (mulf : (⟨S6400000, .f32⟩ : BufTy).Contents (Elt F) → (⟨S6400000, .f32⟩ : BufTy).Contents (Elt F) → (⟨S6400000, .f32⟩ : BufTy).Contents (Elt F)),
    StableHlo.nullary main_cst_12 (constant S_ .f32 0x40800000#32),
    StableHlo.unary main_cst_12 main_v60 (broadcastInDim S6400000 ![] bcast_S_S6400000 : (⟨S_, .f32⟩ : BufTy).Contents (Elt F) → (⟨S6400000, .f32⟩ : BufTy).Contents (Elt F)),
    StableHlo.binary main_v60 main_v37 main_v61 (mulf : (⟨S6400000, .f32⟩ : BufTy).Contents (Elt F) → (⟨S6400000, .f32⟩ : BufTy).Contents (Elt F) → (⟨S6400000, .f32⟩ : BufTy).Contents (Elt F)),
    StableHlo.binary main_v61 main_v40 main_v62 (subf : (⟨S6400000, .f32⟩ : BufTy).Contents (Elt F) → (⟨S6400000, .f32⟩ : BufTy).Contents (Elt F) → (⟨S6400000, .f32⟩ : BufTy).Contents (Elt F)),
    StableHlo.nullary main_cst_13 (constant S_ .f32 0x3FCF623A#32),
    StableHlo.unary main_cst_13 main_v63 (broadcastInDim S6400000 ![] bcast_S_S6400000 : (⟨S_, .f32⟩ : BufTy).Contents (Elt F) → (⟨S6400000, .f32⟩ : BufTy).Contents (Elt F)),
    StableHlo.binary main_v63 main_v62 main_v64 (mulf : (⟨S6400000, .f32⟩ : BufTy).Contents (Elt F) → (⟨S6400000, .f32⟩ : BufTy).Contents (Elt F) → (⟨S6400000, .f32⟩ : BufTy).Contents (Elt F)),
    StableHlo.binary main_v64 main_v25 main_v65 (mulf : (⟨S6400000, .f32⟩ : BufTy).Contents (Elt F) → (⟨S6400000, .f32⟩ : BufTy).Contents (Elt F) → (⟨S6400000, .f32⟩ : BufTy).Contents (Elt F)),
    StableHlo.nullary main_cst_14 (constant S_ .f32 0x3FA953FD#32),
    StableHlo.unary main_cst_14 main_v66 (broadcastInDim S6400000 ![] bcast_S_S6400000 : (⟨S_, .f32⟩ : BufTy).Contents (Elt F) → (⟨S6400000, .f32⟩ : BufTy).Contents (Elt F)),
    StableHlo.binary main_v66 main_v27 main_v67 (mulf : (⟨S6400000, .f32⟩ : BufTy).Contents (Elt F) → (⟨S6400000, .f32⟩ : BufTy).Contents (Elt F) → (⟨S6400000, .f32⟩ : BufTy).Contents (Elt F)),
    StableHlo.nullary main_cst_15 (constant S_ .f32 0x40000000#32),
    StableHlo.unary main_cst_15 main_v68 (broadcastInDim S6400000 ![] bcast_S_S6400000 : (⟨S_, .f32⟩ : BufTy).Contents (Elt F) → (⟨S6400000, .f32⟩ : BufTy).Contents (Elt F)),
    StableHlo.binary main_v68 main_v37 main_v69 (mulf : (⟨S6400000, .f32⟩ : BufTy).Contents (Elt F) → (⟨S6400000, .f32⟩ : BufTy).Contents (Elt F) → (⟨S6400000, .f32⟩ : BufTy).Contents (Elt F)),
    StableHlo.nullary main_cst_16 (constant S_ .f32 0x40400000#32),
    StableHlo.unary main_cst_16 main_v70 (broadcastInDim S6400000 ![] bcast_S_S6400000 : (⟨S_, .f32⟩ : BufTy).Contents (Elt F) → (⟨S6400000, .f32⟩ : BufTy).Contents (Elt F)),
    StableHlo.binary main_v70 main_v40 main_v71 (mulf : (⟨S6400000, .f32⟩ : BufTy).Contents (Elt F) → (⟨S6400000, .f32⟩ : BufTy).Contents (Elt F) → (⟨S6400000, .f32⟩ : BufTy).Contents (Elt F)),
    StableHlo.binary main_v69 main_v71 main_v72 (subf : (⟨S6400000, .f32⟩ : BufTy).Contents (Elt F) → (⟨S6400000, .f32⟩ : BufTy).Contents (Elt F) → (⟨S6400000, .f32⟩ : BufTy).Contents (Elt F)),
    StableHlo.binary main_v67 main_v72 main_v73 (mulf : (⟨S6400000, .f32⟩ : BufTy).Contents (Elt F) → (⟨S6400000, .f32⟩ : BufTy).Contents (Elt F) → (⟨S6400000, .f32⟩ : BufTy).Contents (Elt F)),
    StableHlo.nullary main_cst_17 (constant S_ .f32 0x3FCF623A#32),
    StableHlo.unary main_cst_17 main_v74 (broadcastInDim S6400000 ![] bcast_S_S6400000 : (⟨S_, .f32⟩ : BufTy).Contents (Elt F) → (⟨S6400000, .f32⟩ : BufTy).Contents (Elt F)),
    StableHlo.binary main_v74 main_v29 main_v75 (mulf : (⟨S6400000, .f32⟩ : BufTy).Contents (Elt F) → (⟨S6400000, .f32⟩ : BufTy).Contents (Elt F) → (⟨S6400000, .f32⟩ : BufTy).Contents (Elt F)),
    StableHlo.nullary main_cst_18 (constant S_ .f32 0x40800000#32),
    StableHlo.unary main_cst_18 main_v76 (broadcastInDim S6400000 ![] bcast_S_S6400000 : (⟨S_, .f32⟩ : BufTy).Contents (Elt F) → (⟨S6400000, .f32⟩ : BufTy).Contents (Elt F)),
    StableHlo.binary main_v76 main_v37 main_v77 (mulf : (⟨S6400000, .f32⟩ : BufTy).Contents (Elt F) → (⟨S6400000, .f32⟩ : BufTy).Contents (Elt F) → (⟨S6400000, .f32⟩ : BufTy).Contents (Elt F)),
    StableHlo.binary main_v77 main_v40 main_v78 (subf : (⟨S6400000, .f32⟩ : BufTy).Contents (Elt F) → (⟨S6400000, .f32⟩ : BufTy).Contents (Elt F) → (⟨S6400000, .f32⟩ : BufTy).Contents (Elt F)),
    StableHlo.binary main_v75 main_v78 main_v79 (mulf : (⟨S6400000, .f32⟩ : BufTy).Contents (Elt F) → (⟨S6400000, .f32⟩ : BufTy).Contents (Elt F) → (⟨S6400000, .f32⟩ : BufTy).Contents (Elt F)),
    StableHlo.nullary main_cst_19 (constant S_ .f32 0x402953FD#32),
    StableHlo.unary main_cst_19 main_v80 (broadcastInDim S6400000 ![] bcast_S_S6400000 : (⟨S_, .f32⟩ : BufTy).Contents (Elt F) → (⟨S6400000, .f32⟩ : BufTy).Contents (Elt F)),
    StableHlo.binary main_v80 main_v51 main_v81 (mulf : (⟨S6400000, .f32⟩ : BufTy).Contents (Elt F) → (⟨S6400000, .f32⟩ : BufTy).Contents (Elt F) → (⟨S6400000, .f32⟩ : BufTy).Contents (Elt F)),
    StableHlo.binary main_v81 main_v27 main_v82 (mulf : (⟨S6400000, .f32⟩ : BufTy).Contents (Elt F) → (⟨S6400000, .f32⟩ : BufTy).Contents (Elt F) → (⟨S6400000, .f32⟩ : BufTy).Contents (Elt F)),
    StableHlo.binary main_v51 main_v29 main_v83 (mulf : (⟨S6400000, .f32⟩ : BufTy).Contents (Elt F) → (⟨S6400000, .f32⟩ : BufTy).Contents (Elt F) → (⟨S6400000, .f32⟩ : BufTy).Contents (Elt F)),
    StableHlo.binary main_v33 main_v25 main_v84 (mulf : (⟨S6400000, .f32⟩ : BufTy).Contents (Elt F) → (⟨S6400000, .f32⟩ : BufTy).Contents (Elt F) → (⟨S6400000, .f32⟩ : BufTy).Contents (Elt F)),
    StableHlo.binary main_v83 main_v84 main_v85 (subf : (⟨S6400000, .f32⟩ : BufTy).Contents (Elt F) → (⟨S6400000, .f32⟩ : BufTy).Contents (Elt F) → (⟨S6400000, .f32⟩ : BufTy).Contents (Elt F)),
    StableHlo.nullary main_cst_20 (constant S_ .f32 0x3F8A417C#32),
    StableHlo.unary main_cst_20 main_v86 (broadcastInDim S6400000 ![] bcast_S_S6400000 : (⟨S_, .f32⟩ : BufTy).Contents (Elt F) → (⟨S6400000, .f32⟩ : BufTy).Contents (Elt F)),
    StableHlo.binary main_v86 main_v85 main_v87 (mulf : (⟨S6400000, .f32⟩ : BufTy).Contents (Elt F) → (⟨S6400000, .f32⟩ : BufTy).Contents (Elt F) → (⟨S6400000, .f32⟩ : BufTy).Contents (Elt F)) ]

theorem opsC_sub : (opsC : List (HloOp τ sig (Elt F))).Forall fun op => op.bufs ⊆ tcRefs τ sig :=
  ⟨nullary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub ..⟩

/-- Stretch opsD (20 lines): the sixteen vectors made columns and laid side by side, and the product with the table of scales broadcast down the rows (main_v107). -/
abbrev opsD : List (HloOp τ sig (Elt F)) :=
  [ StableHlo.unary main_v30 main_v88 (broadcastInDim S6400000x1 ![0] bcast_S6400000_S6400000x1_0 : (⟨S6400000, .f32⟩ : BufTy).Contents (Elt F) → (⟨S6400000x1, .f32⟩ : BufTy).Contents (Elt F)),
    StableHlo.unary main_v25 main_v89 (broadcastInDim S6400000x1 ![0] bcast_S6400000_S6400000x1_0 : (⟨S6400000, .f32⟩ : BufTy).Contents (Elt F) → (⟨S6400000x1, .f32⟩ : BufTy).Contents (Elt F)),
    StableHlo.unary main_v27 main_v90 (broadcastInDim S6400000x1 ![0] bcast_S6400000_S6400000x1_0 : (⟨S6400000, .f32⟩ : BufTy).Contents (Elt F) → (⟨S6400000x1, .f32⟩ : BufTy).Contents (Elt F)),
    StableHlo.unary main_v29 main_v91 (broadcastInDim S6400000x1 ![0] bcast_S6400000_S6400000x1_0 : (⟨S6400000, .f32⟩ : BufTy).Contents (Elt F) → (⟨S6400000x1, .f32⟩ : BufTy).Contents (Elt F)),
    StableHlo.unary main_v33 main_v92 (broadcastInDim S6400000x1 ![0] bcast_S6400000_S6400000x1_0 : (⟨S6400000, .f32⟩ : BufTy).Contents (Elt F) → (⟨S6400000x1, .f32⟩ : BufTy).Contents (Elt F)),
    StableHlo.unary main_v36 main_v93 (broadcastInDim S6400000x1 ![0] bcast_S6400000_S6400000x1_0 : (⟨S6400000, .f32⟩ : BufTy).Contents (Elt F) → (⟨S6400000x1, .f32⟩ : BufTy).Contents (Elt F)),
    StableHlo.unary main_v43 main_v94 (broadcastInDim S6400000x1 ![0] bcast_S6400000_S6400000x1_0 : (⟨S6400000, .f32⟩ : BufTy).Contents (Elt F) → (⟨S6400000x1, .f32⟩ : BufTy).Contents (Elt F)),
    StableHlo.unary main_v46 main_v95 (broadcastInDim S6400000x1 ![0] bcast_S6400000_S6400000x1_0 : (⟨S6400000, .f32⟩ : BufTy).Contents (Elt F) → (⟨S6400000x1, .f32⟩ : BufTy).Contents (Elt F)),
    StableHlo.unary main_v51 main_v96 (broadcastInDim S6400000x1 ![0] bcast_S6400000_S6400000x1_0 : (⟨S6400000, .f32⟩ : BufTy).Contents (Elt F) → (⟨S6400000x1, .f32⟩ : BufTy).Contents (Elt F)),
    StableHlo.unary main_v56 main_v97 (broadcastInDim S6400000x1 ![0] bcast_S6400000_S6400000x1_0 : (⟨S6400000, .f32⟩ : BufTy).Contents (Elt F) → (⟨S6400000x1, .f32⟩ : BufTy).Contents (Elt F)),
    StableHlo.unary main_v59 main_v98 (broadcastInDim S6400000x1 ![0] bcast_S6400000_S6400000x1_0 : (⟨S6400000, .f32⟩ : BufTy).Contents (Elt F) → (⟨S6400000x1, .f32⟩ : BufTy).Contents (Elt F)),
    StableHlo.unary main_v65 main_v99 (broadcastInDim S6400000x1 ![0] bcast_S6400000_S6400000x1_0 : (⟨S6400000, .f32⟩ : BufTy).Contents (Elt F) → (⟨S6400000x1, .f32⟩ : BufTy).Contents (Elt F)),
    StableHlo.unary main_v73 main_v100 (broadcastInDim S6400000x1 ![0] bcast_S6400000_S6400000x1_0 : (⟨S6400000, .f32⟩ : BufTy).Contents (Elt F) → (⟨S6400000x1, .f32⟩ : BufTy).Contents (Elt F)),
    StableHlo.unary main_v79 main_v101 (broadcastInDim S6400000x1 ![0] bcast_S6400000_S6400000x1_0 : (⟨S6400000, .f32⟩ : BufTy).Contents (Elt F) → (⟨S6400000x1, .f32⟩ : BufTy).Contents (Elt F)),
    StableHlo.unary main_v82 main_v102 (broadcastInDim S6400000x1 ![0] bcast_S6400000_S6400000x1_0 : (⟨S6400000, .f32⟩ : BufTy).Contents (Elt F) → (⟨S6400000x1, .f32⟩ : BufTy).Contents (Elt F)),
    StableHlo.unary main_v87 main_v103 (broadcastInDim S6400000x1 ![0] bcast_S6400000_S6400000x1_0 : (⟨S6400000, .f32⟩ : BufTy).Contents (Elt F) → (⟨S6400000x1, .f32⟩ : BufTy).Contents (Elt F)),
    StableHlo.nary ![main_v88, main_v89, main_v90, main_v91, main_v92, main_v93, main_v94, main_v95, main_v96, main_v97, main_v98, main_v99, main_v100, main_v101, main_v102, main_v103] main_v104 (fun u => concatenate S6400000x16 1 [⟨S6400000x1, u 0⟩, ⟨S6400000x1, u 1⟩, ⟨S6400000x1, u 2⟩, ⟨S6400000x1, u 3⟩, ⟨S6400000x1, u 4⟩, ⟨S6400000x1, u 5⟩, ⟨S6400000x1, u 6⟩, ⟨S6400000x1, u 7⟩, ⟨S6400000x1, u 8⟩, ⟨S6400000x1, u 9⟩, ⟨S6400000x1, u 10⟩, ⟨S6400000x1, u 11⟩, ⟨S6400000x1, u 12⟩, ⟨S6400000x1, u 13⟩, ⟨S6400000x1, u 14⟩, ⟨S6400000x1, u 15⟩] concatenates_S6400000x1_S6400000x1_S6400000x1_S6400000x1_S6400000x1_S6400000x1_S6400000x1_S6400000x1_S6400000x1_S6400000x1_S6400000x1_S6400000x1_S6400000x1_S6400000x1_S6400000x1_S6400000x1_S6400000x16_d1),
    StableHlo.unary main_cst main_v105 (broadcastInDim S1x16 ![1] bcast_S16_S1x16_1 : (⟨S16, .f32⟩ : BufTy).Contents (Elt F) → (⟨S1x16, .f32⟩ : BufTy).Contents (Elt F)),
    StableHlo.unary main_v105 main_v106 (broadcastInDim S6400000x16 ![0, 1] bcast_S1x16_S6400000x16_0_1 : (⟨S1x16, .f32⟩ : BufTy).Contents (Elt F) → (⟨S6400000x16, .f32⟩ : BufTy).Contents (Elt F)),
    StableHlo.binary main_v104 main_v106 main_v107 (mulf : (⟨S6400000x16, .f32⟩ : BufTy).Contents (Elt F) → (⟨S6400000x16, .f32⟩ : BufTy).Contents (Elt F) → (⟨S6400000x16, .f32⟩ : BufTy).Contents (Elt F)) ]

theorem opsD_sub : (opsD : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub ..⟩

/-- Stretch opsB again, the called function's five lines written with the plain builders on the call's buffers
    (the same operations: a typed reference made of a literal buffer transports contents by the identity). -/
abbrev opsBplain : List (HloOp τ sig (Elt F)) :=
  [ StableHlo.binary main_v18 main_v18 main_call0_v0 (mulf : (⟨S6400000x3, .f32⟩ : BufTy).Contents (Elt F) → (⟨S6400000x3, .f32⟩ : BufTy).Contents (Elt F) → (⟨S6400000x3, .f32⟩ : BufTy).Contents (Elt F)),
    StableHlo.nullary main_call0_cst (constant S_ .f32 0x00000000#32),
    StableHlo.binary main_call0_v0 main_call0_cst main_call0_v1 ((fun x v => Host.reduceAdd x v reducesTo_S6400000x3_S6400000_d1 h_S_) : (⟨S6400000x3, .f32⟩ : BufTy).Contents (Elt F) → (⟨S_, .f32⟩ : BufTy).Contents (Elt F) → (⟨S6400000, .f32⟩ : BufTy).Contents (Elt F)),
    StableHlo.unary main_call0_v1 main_call0_v2 (broadcastInDim S6400000x1 ![0] bcast_S6400000_S6400000x1_0 : (⟨S6400000, .f32⟩ : BufTy).Contents (Elt F) → (⟨S6400000x1, .f32⟩ : BufTy).Contents (Elt F)),
    StableHlo.unary main_call0_v2 main_v19 (Host.sqrt : (⟨S6400000x1, .f32⟩ : BufTy).Contents (Elt F) → (⟨S6400000x1, .f32⟩ : BufTy).Contents (Elt F)),
    StableHlo.nullary main_cst_3 (constant S_ .f32 0x2B8CBCCC#32),
    StableHlo.unary main_cst_3 main_v20 (broadcastInDim S6400000x1 ![] bcast_S_S6400000x1 : (⟨S_, .f32⟩ : BufTy).Contents (Elt F) → (⟨S6400000x1, .f32⟩ : BufTy).Contents (Elt F)),
    StableHlo.binary main_v19 main_v20 main_v21 (maximumf : (⟨S6400000x1, .f32⟩ : BufTy).Contents (Elt F) → (⟨S6400000x1, .f32⟩ : BufTy).Contents (Elt F) → (⟨S6400000x1, .f32⟩ : BufTy).Contents (Elt F)),
    StableHlo.unary main_v21 main_v22 (broadcastInDim S6400000x3 ![0, 1] bcast_S6400000x1_S6400000x3_0_1 : (⟨S6400000x1, .f32⟩ : BufTy).Contents (Elt F) → (⟨S6400000x3, .f32⟩ : BufTy).Contents (Elt F)),
    StableHlo.binary main_v18 main_v22 main_v23 (Host.divf : (⟨S6400000x3, .f32⟩ : BufTy).Contents (Elt F) → (⟨S6400000x3, .f32⟩ : BufTy).Contents (Elt F) → (⟨S6400000x3, .f32⟩ : BufTy).Contents (Elt F)),
    StableHlo.unary main_v23 main_v24 ((extractStridedSlice S6400000x1 ![0, 0] · slices_S6400000x3_S6400000x1_0_0) : (⟨S6400000x3, .f32⟩ : BufTy).Contents (Elt F) → (⟨S6400000x1, .f32⟩ : BufTy).Contents (Elt F)),
    StableHlo.reshape main_v24 main_v25 rfl shapeCasts_S6400000x1_S6400000,
    StableHlo.unary main_v23 main_v26 ((extractStridedSlice S6400000x1 ![0, 1] · slices_S6400000x3_S6400000x1_0_1) : (⟨S6400000x3, .f32⟩ : BufTy).Contents (Elt F) → (⟨S6400000x1, .f32⟩ : BufTy).Contents (Elt F)),
    StableHlo.reshape main_v26 main_v27 rfl shapeCasts_S6400000x1_S6400000,
    StableHlo.unary main_v23 main_v28 ((extractStridedSlice S6400000x1 ![0, 2] · slices_S6400000x3_S6400000x1_0_2) : (⟨S6400000x3, .f32⟩ : BufTy).Contents (Elt F) → (⟨S6400000x1, .f32⟩ : BufTy).Contents (Elt F)),
    StableHlo.reshape main_v28 main_v29 rfl shapeCasts_S6400000x1_S6400000 ]

/-- The whole line of operations: the four stretches one after the other. -/
abbrev ops : List (HloOp τ sig (Elt F)) := opsA ++ (opsB ++ (opsC ++ opsD))

end Cert.ReferenceIdeal.RefOps

end
-- ==== Proof.RefRun.lean ====
/-
  The reference program runs, and every buffer ends at the fold of its host operations over the launch contents.

  The program's @main is a straight line: the printed windows one after the other, with the call of the norm function
  replaced by that function's body over the call's own buffers (a call executes the callee's lines on the operands).
  Re-associating the sequencing shows @main IS the line of operations `RefOps.ops`; a straight line of host operations
  over unscoped buffers terminates on every weakly fair execution, each buffer ending at the operations applied in order.
-/
import proofs.«119992_j59588376265204_2_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

-- one bind per operation is re-associated: the rewrite under the chain recurses once per statement
set_option maxRecDepth 8192 in
set_option maxHeartbeats 4000000 in
/-- @main is the straight line: the three windows and the called function unfolded, the sequencing re-associated. -/
theorem main_eq (c : Dev nD) : main (F := F) c = seq ops := by
  simp only [main, main_part0, main_part1, main_part2, fn_norm.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are the device's. -/
theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

/-- No operation of the line allocates: each determines its results. -/
theorem ops_fresh : ∀ op ∈ (ops : List (HloOp τ sig (Elt F))), op.fresh = ∅ := by
  intro op h
  simp only [ops, List.mem_append] at h
  rcases h with h | h | h | h
  all_goals (repeat (cases h with | head => rfl | tail _ h => ?_)); exact nomatch h

/-- From any memory with zero counters every weakly fair execution of @main terminates, nothing faulting, and every
    buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefCols.lean ====
/-
  Names for the reference's intermediate arrays, read out of a valuation of its buffers at the types they have: the edge
  vectors, the unit vector's three coordinate columns, the table of scales, and the sixteen vectors the reference lays side
  by side (entry j of every edge's row, before its scale), selected by j.
-/
import proofs.«119992_j59588376265204_2_alg».proof.Proof.RefOps
import Idealize.ShloMosaic.PureOps.Ideal

noncomputable section

namespace Cert.ReferenceIdeal.RefCols

open Cert.ReferenceIdeal Cert.ReferenceIdeal.Gen
open Idealize.ShloMosaic Idealize.ShloMosaic.TcCoe Idealize.SL.Sem Idealize.ShloMosaic.StableHlo

/-- The edge vectors (6400000 × 3). -/
abbrev evs (W : Valuation τ sig (Elt Ideal)) : S6400000x3.Idx → EReal := W (main_v18 : DevRef τ sig)
/-- The unit vectors' x, y, z coordinates, one entry per edge. -/
abbrev xs (W : Valuation τ sig (Elt Ideal)) : S6400000.Idx → EReal := W (main_v25 : DevRef τ sig)
abbrev ys (W : Valuation τ sig (Elt Ideal)) : S6400000.Idx → EReal := W (main_v27 : DevRef τ sig)
abbrev zs (W : Valuation τ sig (Elt Ideal)) : S6400000.Idx → EReal := W (main_v29 : DevRef τ sig)
/-- The table of the sixteen scales. -/
abbrev tbl (W : Valuation τ sig (Elt Ideal)) : S16.Idx → EReal := W (main_cst : DevRef τ sig)
/-- The result (6400000 × 16). -/
abbrev res (W : Valuation τ sig (Elt Ideal)) : S6400000x16.Idx → EReal := W (main_v107 : DevRef τ sig)

/-- The vector holding entry j of every edge's row before its scale. -/
def colR (W : Valuation τ sig (Elt Ideal)) : Fin 16 → (S6400000.Idx → EReal)
  | ⟨0, _⟩ => W (main_v30 : DevRef τ sig)
  | ⟨1, _⟩ => W (main_v25 : DevRef τ sig)
  | ⟨2, _⟩ => W (main_v27 : DevRef τ sig)
  | ⟨3, _⟩ => W (main_v29 : DevRef τ sig)
  | ⟨4, _⟩ => W (main_v33 : DevRef τ sig)
  | ⟨5, _⟩ => W (main_v36 : DevRef τ sig)
  | ⟨6, _⟩ => W (main_v43 : DevRef τ sig)
  | ⟨7, _⟩ => W (main_v46 : DevRef τ sig)
  | ⟨8, _⟩ => W (main_v51 : DevRef τ sig)
  | ⟨9, _⟩ => W (main_v56 : DevRef τ sig)
  | ⟨10, _⟩ => W (main_v59 : DevRef τ sig)
  | ⟨11, _⟩ => W (main_v65 : DevRef τ sig)
  | ⟨12, _⟩ => W (main_v73 : DevRef τ sig)
  | ⟨13, _⟩ => W (main_v79 : DevRef τ sig)
  | ⟨14, _⟩ => W (main_v82 : DevRef τ sig)
  | ⟨15, _⟩ => W (main_v87 : DevRef τ sig)
  | ⟨_ + 16, h⟩ => absurd h (Nat.not_lt.2 (Nat.le_add_left _ _))

end Cert.ReferenceIdeal.RefCols

end
-- ==== Proof.RefReadA.lean ====
/-
  The reference's first stretch: the table of scales.

  The first line writes the sixteen scales √(2l+1), one per entry of a row, as a dense table of float patterns; the rest of
  the stretch (the two gathers and their difference) does not touch it.  Entry j of the table is the scale `Sph.coef j`:
  the same patterns, entry by entry.
-/
import proofs.«119992_j59588376265204_2_alg».proof.Proof.RefCols
import proofs.«119992_j59588376265204_2_alg».proof.Proof.Sph
import Idealize.ShloMosaic.Lib.ValueIdx

noncomputable section

namespace Cert.ReferenceIdeal.RefReadA

open Cert.ReferenceIdeal Cert.ReferenceIdeal.Gen Cert.ReferenceIdeal.RefOps Cert.ReferenceIdeal.RefCols
open Idealize.ShloMosaic Idealize.ShloMosaic.TcCoe Idealize.SL.Sem Idealize.ShloMosaic.StableHlo Idealize.ShloMosaic.ValueIdx
open Cert.Sph

/-- The dense table's pattern at j is the scale's pattern. -/
theorem lit_eq_coef (j : Fin 16) : Ideal.ofBits .f32 (lit0 j) = coef j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => exact absurd h (Nat.not_lt.2 (Nat.le_add_left _ _))

/-- The table after the stretch, at j, is the scale of entry j. -/
theorem tbl_apply (W : Valuation τ sig (Elt Ideal)) (j : Fin 16) : tbl (after opsA W) (ix1 j) = coef j := by
  show (after opsA W (main_cst : DevRef τ sig) : S16.Idx → EReal) (ix1 j) = _
  after_results_simp
  have hj : S16.rowMajor (ix1 j) = j := Fin.ext ((Shape.rowMajor_val_one _).trans rfl)
  show Ideal.ofBits .f32 (lit0 (S16.rowMajor (ix1 j))) = coef j
  rw [hj]
  exact lit_eq_coef j

/-- The stretch writes neither argument array. -/
theorem arg0_kept (W : Valuation τ sig (Elt Ideal)) : after opsA W (main_arg0 : DevRef τ sig) = W (main_arg0 : DevRef τ sig) := by
  after_results_simp

theorem arg1_kept (W : Valuation τ sig (Elt Ideal)) : after opsA W (main_arg1 : DevRef τ sig) = W (main_arg1 : DevRef τ sig) := by
  after_results_simp

end Cert.ReferenceIdeal.RefReadA

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibHostRowSum.lean ====
/- A host sum along the second axis read at a coordinate, on the extended reals, for any extents: a `stablehlo.reduce`
   with an add body over axis 1 of an `[A, K]` array from an initial value, at row `p`, is the initial value plus the sum
   over `k` of the array at `(p, k)`.  Nothing here depends on a particular program. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.HostRowSum

/-- The host's sum over axis 1 of an `[A, K]` array from `init`, read at row `p`: `init` plus the sum over `k : Fin K` of the
    array at `(p, k)`.  The two shape facts are taken as given (at literal shapes `decide` proves the second). -/
theorem hostRowSum_apply {A K : ℕ} (x : (⟨2, ![A, K]⟩ : Shape).Idx → EReal) (init : EReal)
    (h' : (⟨2, ![A, K]⟩ : Shape).ReducesTo [1] ⟨1, ![A]⟩) (h : (⟨2, ![A, K]⟩ : Shape).Reduces [1] ⟨1, ![A]⟩) (p : Fin A) :
    Ideal.hostReduceAdd h' x init (ix1 p) = init + ∑ k : Fin K, x (ix2 p k) :=
  (Ideal.hostReduceAdd_single h' h x init (ix1 p)).trans
    (congrArg (fun s => init + s) (Finset.sum_congr rfl fun k _ => congrArg x (funext fun a => Fin.ext (by
      match a with
      | ⟨0, _⟩ => rfl
      | ⟨1, _⟩ => rfl))))

end Cert.Lib.HostRowSum

end
-- ==== Proof.RefSumSq.lean ====
/-
  The reference's sum of squares at one edge: the host's sum along the coordinate axis of the squared edge vectors, from
  the zero start, at edge e, is that start plus the three squares of edge e's coordinates.
-/
import proofs.«119992_j59588376265204_2_alg».proof.Proof.RefCols
import proofs.«119992_j59588376265204_2_alg».proof.Proof.Sph
import proofs.«119992_j59588376265204_2_alg».proof.Proof.LibHostRowSum

noncomputable section

namespace Cert.ReferenceIdeal.RefSumSq

open Cert.ReferenceIdeal Cert.ReferenceIdeal.Gen
open Idealize.ShloMosaic Idealize.ShloMosaic.ValueIdx Cert.Sph Cert.Lib.HostRowSum

theorem hReduces : S6400000x3.Reduces [1] S6400000 := by decide

/-- The host's sum along the coordinate axis at edge e: the start value plus the three squares. -/
theorem sumsq_apply (ev : S6400000x3.Idx → EReal) (e : Fin 6400000) :
    Ideal.hostReduceAdd reducesTo_S6400000x3_S6400000_d1 (fun i => ev i * ev i) zero (ix1 e)
      = zero + ∑ k : Fin 3, ev (ix2 e k) * ev (ix2 e k) := by
  have h := hostRowSum_apply (A := 6400000) (K := 3) (fun i => ev i * ev i) zero reducesTo_S6400000x3_S6400000_d1 hReduces e
  exact h

end Cert.ReferenceIdeal.RefSumSq

end
-- ==== Proof.LibHostReads.lean ====
/- Host operations read at an index, on the extended reals, for any shape: the host's quotient and square root are
   pointwise, a host sum from a rank-zero initial value is the exact sum from that value's one element, and a rank-zero
   constant broadcast to any shape reads the constant everywhere.  Each holds by unfolding the definition; stating them
   once over variable shapes lets a proof rewrite with them instead of unfolding full-size arrays.
   Nothing here depends on a particular program. -/
import Idealize.ShloMosaic.PureOps.Ideal
import Idealize.ShloMosaic.Lib.ValueIdx

noncomputable section

open Idealize.ShloMosaic

namespace Cert.Lib.HostReads

variable {s : Shape} {φ : FTy}

/-- The host's quotient reads index by index. -/
theorem hostDivf_apply (a b : FVec Ideal s φ) (i : s.Idx) : Host.divf a b i = Ideal.div (a i) (b i) := rfl

/-- The host's square root reads index by index. -/
theorem hostSqrt_apply (a : FVec Ideal s φ) (i : s.Idx) : Host.sqrt a i = Ideal.sqrt (a i) := rfl

/-- A product reads index by index (as a function). -/
theorem mulf_eq (a b : FVec Ideal s φ) : mulf a b = fun i => a i * b i := rfl

/-- The host's float sum from a rank-zero initial value is the exact sum from that value's one element. -/
theorem hostReduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

/-- A rank-zero constant broadcast to any shape reads the constant's value at every index. -/
theorem broadcast_constant_apply {t : Shape} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

end Cert.Lib.HostReads

end
-- ==== Proof.RefReadB.lean ====
/-
  The reference's normalisation stretch, read entry by entry.

  From the edge vectors the stretch computes, per edge, the sum of the three squared coordinates from a zero start, its
  square root made a column, the maximum with ε, that column repeated across the three coordinates, and the quotient of
  the edge vectors by it; the unit vector's coordinate columns are then sliced out and made vectors.  So the x (y, z)
  coordinate at edge e is the edge vector's first (second, third) coordinate divided by max (√(0 + Σ squares)) ε — the
  reference-form norm `Sph.nrmR` of edge e's three coordinates.  The stretch does not write the table of scales.
-/
import proofs.«119992_j59588376265204_2_alg».proof.Proof.RefCols
import proofs.«119992_j59588376265204_2_alg».proof.Proof.Sph
import proofs.«119992_j59588376265204_2_alg».proof.Proof.LibColumnReads
import proofs.«119992_j59588376265204_2_alg».proof.Proof.LibBroadcastReads
import proofs.«119992_j59588376265204_2_alg».proof.Proof.RefSumSq
import proofs.«119992_j59588376265204_2_alg».proof.Proof.LibHostReads
import Idealize.ShloMosaic.PureOps.Ideal.Laws

noncomputable section

namespace Cert.ReferenceIdeal.RefReadB

open Cert.ReferenceIdeal Cert.ReferenceIdeal.Gen Cert.ReferenceIdeal.RefOps Cert.ReferenceIdeal.RefCols
open Idealize.ShloMosaic Idealize.ShloMosaic.TcCoe Idealize.SL.Sem Idealize.ShloMosaic.StableHlo Idealize.ShloMosaic.ValueIdx
open Cert.Sph Cert.Lib.ColumnReads Cert.Lib.BroadcastReads Cert.Lib.HostReads Cert.ReferenceIdeal.RefSumSq

/-- The called function's five lines are the plain operations on the call's buffers: contents pass through a typed
    reference made of a literal buffer unchanged. -/
theorem opsB_eq {F : FTy → Type} [FloatOps F] : (opsB : List (HloOp τ sig (Elt F))) = opsBplain := rfl

/-- The x column after the stretch: the edge vector's first coordinate over its clamped norm. -/
theorem x_apply (W : Valuation τ sig (Elt Ideal)) (e : Fin 6400000) :
    xs (after opsB W) (ix1 e) = Ideal.div (evs W (ix2 e (0 : Fin 3))) (nrmR fun k => evs W (ix2 e k)) := by
  show (after opsB W (main_v25 : DevRef τ sig) : S6400000.Idx → EReal) (ix1 e) = _
  rw [opsB_eq]
  after_results_simp
  refine (shapeCast_a1_a_apply (a := 6400000) _ _ e).trans ?_
  refine (slice_column_apply (a := 6400000) (b := 3) 0 (by decide) _ _ e 0).trans ?_
  refine (hostDivf_apply _ _ _).trans ?_
  refine congrArg (Ideal.div (evs W (ix2 e (0 : Fin 3)))) ?_
  refine (broadcastInDim_a1_ab_apply (a := 6400000) (b := 3) _ _ e _).trans ?_
  refine (maximumf_apply _ _ _).trans ?_
  unfold nrmR
  refine congrArg₂ max ?_ ?_
  · refine (hostSqrt_apply _ _).trans ?_
    refine congrArg Ideal.sqrt ?_
    refine (broadcastInDim_a_a1_apply (a := 6400000) _ _ e 0).trans ?_
    refine (hostReduceAdd_apply _ _ _ _ _).trans ?_
    rw [mulf_eq]
    exact sumsq_apply (evs W) e
  · exact broadcast_constant_apply _ _ _ _

/-- The y column after the stretch. -/
theorem y_apply (W : Valuation τ sig (Elt Ideal)) (e : Fin 6400000) :
    ys (after opsB W) (ix1 e) = Ideal.div (evs W (ix2 e (1 : Fin 3))) (nrmR fun k => evs W (ix2 e k)) := by
  show (after opsB W (main_v27 : DevRef τ sig) : S6400000.Idx → EReal) (ix1 e) = _
  rw [opsB_eq]
  after_results_simp
  refine (shapeCast_a1_a_apply (a := 6400000) _ _ e).trans ?_
  refine (slice_column_apply (a := 6400000) (b := 3) 1 (by decide) _ _ e 0).trans ?_
  refine (hostDivf_apply _ _ _).trans ?_
  refine congrArg (Ideal.div (evs W (ix2 e (1 : Fin 3)))) ?_
  refine (broadcastInDim_a1_ab_apply (a := 6400000) (b := 3) _ _ e _).trans ?_
  refine (maximumf_apply _ _ _).trans ?_
  unfold nrmR
  refine congrArg₂ max ?_ ?_
  · refine (hostSqrt_apply _ _).trans ?_
    refine congrArg Ideal.sqrt ?_
    refine (broadcastInDim_a_a1_apply (a := 6400000) _ _ e 0).trans ?_
    refine (hostReduceAdd_apply _ _ _ _ _).trans ?_
    rw [mulf_eq]
    exact sumsq_apply (evs W) e
  · exact broadcast_constant_apply _ _ _ _

/-- The z column after the stretch. -/
theorem z_apply (W : Valuation τ sig (Elt Ideal)) (e : Fin 6400000) :
    zs (after opsB W) (ix1 e) = Ideal.div (evs W (ix2 e (2 : Fin 3))) (nrmR fun k => evs W (ix2 e k)) := by
  show (after opsB W (main_v29 : DevRef τ sig) : S6400000.Idx → EReal) (ix1 e) = _
  rw [opsB_eq]
  after_results_simp
  refine (shapeCast_a1_a_apply (a := 6400000) _ _ e).trans ?_
  refine (slice_column_apply (a := 6400000) (b := 3) 2 (by decide) _ _ e 0).trans ?_
  refine (hostDivf_apply _ _ _).trans ?_
  refine congrArg (Ideal.div (evs W (ix2 e (2 : Fin 3)))) ?_
  refine (broadcastInDim_a1_ab_apply (a := 6400000) (b := 3) _ _ e _).trans ?_
  refine (maximumf_apply _ _ _).trans ?_
  unfold nrmR
  refine congrArg₂ max ?_ ?_
  · refine (hostSqrt_apply _ _).trans ?_
    refine congrArg Ideal.sqrt ?_
    refine (broadcastInDim_a_a1_apply (a := 6400000) _ _ e 0).trans ?_
    refine (hostReduceAdd_apply _ _ _ _ _).trans ?_
    rw [mulf_eq]
    exact sumsq_apply (evs W) e
  · exact broadcast_constant_apply _ _ _ _

/-- The stretch does not write the table of scales. -/
theorem tbl_kept (W : Valuation τ sig (Elt Ideal)) : tbl (after opsB W) = tbl W := by
  show after opsB W (main_cst : DevRef τ sig) = W (main_cst : DevRef τ sig)
  rw [opsB_eq]
  after_results_simp

/-- The stretch writes neither argument array. -/
theorem arg0_kept (W : Valuation τ sig (Elt Ideal)) : after opsB W (main_arg0 : DevRef τ sig) = W (main_arg0 : DevRef τ sig) := by
  rw [opsB_eq]
  after_results_simp

theorem arg1_kept (W : Valuation τ sig (Elt Ideal)) : after opsB W (main_arg1 : DevRef τ sig) = W (main_arg1 : DevRef τ sig) := by
  rw [opsB_eq]
  after_results_simp

end Cert.ReferenceIdeal.RefReadB

end
-- ==== Proof.RefReadC.lean ====
/-
  The reference's polynomial stretch, read entry by entry.

  Every line of the stretch is pointwise on vectors of one entry per edge (a product, a sum, a difference, a constant
  repeated along the vector), so the vector holding entry j of every row, at edge e, is the polynomial `Sph.raw j` of the
  unit vector's three coordinates at e: the lines are `raw j`'s operations, association for association.  The stretch
  writes neither the table of scales nor the coordinate columns.
-/
import proofs.«119992_j59588376265204_2_alg».proof.Proof.RefCols
import proofs.«119992_j59588376265204_2_alg».proof.Proof.Sph
import Idealize.ShloMosaic.Lib.ValueIdx

noncomputable section

namespace Cert.ReferenceIdeal.RefReadC

open Cert.ReferenceIdeal Cert.ReferenceIdeal.Gen Cert.ReferenceIdeal.RefOps Cert.ReferenceIdeal.RefCols
open Idealize.ShloMosaic Idealize.ShloMosaic.TcCoe Idealize.SL.Sem Idealize.ShloMosaic.StableHlo Idealize.ShloMosaic.ValueIdx
open Cert.Sph

/-! One lemma per vector: the stretch's lines for it, read at edge e, are `raw j` of the three coordinates at e. -/

set_option maxHeartbeats 1000000 in
theorem col0_apply (W : Valuation τ sig (Elt Ideal)) (e : Fin 6400000) :
    (after opsC W (main_v30 : DevRef τ sig) : S6400000.Idx → EReal) (ix1 e)
      = raw ⟨0, by decide⟩ (xs W (ix1 e)) (ys W (ix1 e)) (zs W (ix1 e)) := by
  after_results_simp
  rfl

set_option maxHeartbeats 1000000 in
theorem col1_apply (W : Valuation τ sig (Elt Ideal)) (e : Fin 6400000) :
    (after opsC W (main_v25 : DevRef τ sig) : S6400000.Idx → EReal) (ix1 e)
      = raw ⟨1, by decide⟩ (xs W (ix1 e)) (ys W (ix1 e)) (zs W (ix1 e)) := by
  after_results_simp
  rfl

set_option maxHeartbeats 1000000 in
theorem col2_apply (W : Valuation τ sig (Elt Ideal)) (e : Fin 6400000) :
    (after opsC W (main_v27 : DevRef τ sig) : S6400000.Idx → EReal) (ix1 e)
      = raw ⟨2, by decide⟩ (xs W (ix1 e)) (ys W (ix1 e)) (zs W (ix1 e)) := by
  after_results_simp
  rfl

set_option maxHeartbeats 1000000 in
theorem col3_apply (W : Valuation τ sig (Elt Ideal)) (e : Fin 6400000) :
    (after opsC W (main_v29 : DevRef τ sig) : S6400000.Idx → EReal) (ix1 e)
      = raw ⟨3, by decide⟩ (xs W (ix1 e)) (ys W (ix1 e)) (zs W (ix1 e)) := by
  after_results_simp
  rfl

set_option maxHeartbeats 1000000 in
theorem col4_apply (W : Valuation τ sig (Elt Ideal)) (e : Fin 6400000) :
    (after opsC W (main_v33 : DevRef τ sig) : S6400000.Idx → EReal) (ix1 e)
      = raw ⟨4, by decide⟩ (xs W (ix1 e)) (ys W (ix1 e)) (zs W (ix1 e)) := by
  after_results_simp
  rfl

set_option maxHeartbeats 1000000 in
theorem col5_apply (W : Valuation τ sig (Elt Ideal)) (e : Fin 6400000) :
    (after opsC W (main_v36 : DevRef τ sig) : S6400000.Idx → EReal) (ix1 e)
      = raw ⟨5, by decide⟩ (xs W (ix1 e)) (ys W (ix1 e)) (zs W (ix1 e)) := by
  after_results_simp
  rfl

set_option maxHeartbeats 1000000 in
theorem col6_apply (W : Valuation τ sig (Elt Ideal)) (e : Fin 6400000) :
    (after opsC W (main_v43 : DevRef τ sig) : S6400000.Idx → EReal) (ix1 e)
      = raw ⟨6, by decide⟩ (xs W (ix1 e)) (ys W (ix1 e)) (zs W (ix1 e)) := by
  after_results_simp
  rfl

set_option maxHeartbeats 1000000 in
theorem col7_apply (W : Valuation τ sig (Elt Ideal)) (e : Fin 6400000) :
    (after opsC W (main_v46 : DevRef τ sig) : S6400000.Idx → EReal) (ix1 e)
      = raw ⟨7, by decide⟩ (xs W (ix1 e)) (ys W (ix1 e)) (zs W (ix1 e)) := by
  after_results_simp
  rfl

set_option maxHeartbeats 1000000 in
theorem col8_apply (W : Valuation τ sig (Elt Ideal)) (e : Fin 6400000) :
    (after opsC W (main_v51 : DevRef τ sig) : S6400000.Idx → EReal) (ix1 e)
      = raw ⟨8, by decide⟩ (xs W (ix1 e)) (ys W (ix1 e)) (zs W (ix1 e)) := by
  after_results_simp
  rfl

set_option maxHeartbeats 1000000 in
theorem col9_apply (W : Valuation τ sig (Elt Ideal)) (e : Fin 6400000) :
    (after opsC W (main_v56 : DevRef τ sig) : S6400000.Idx → EReal) (ix1 e)
      = raw ⟨9, by decide⟩ (xs W (ix1 e)) (ys W (ix1 e)) (zs W (ix1 e)) := by
  after_results_simp
  rfl

set_option maxHeartbeats 1000000 in
theorem col10_apply (W : Valuation τ sig (Elt Ideal)) (e : Fin 6400000) :
    (after opsC W (main_v59 : DevRef τ sig) : S6400000.Idx → EReal) (ix1 e)
      = raw ⟨10, by decide⟩ (xs W (ix1 e)) (ys W (ix1 e)) (zs W (ix1 e)) := by
  after_results_simp
  rfl

set_option maxHeartbeats 1000000 in
theorem col11_apply (W : Valuation τ sig (Elt Ideal)) (e : Fin 6400000) :
    (after opsC W (main_v65 : DevRef τ sig) : S6400000.Idx → EReal) (ix1 e)
      = raw ⟨11, by decide⟩ (xs W (ix1 e)) (ys W (ix1 e)) (zs W (ix1 e)) := by
  after_results_simp
  rfl

set_option maxHeartbeats 1000000 in
theorem col12_apply (W : Valuation τ sig (Elt Ideal)) (e : Fin 6400000) :
    (after opsC W (main_v73 : DevRef τ sig) : S6400000.Idx → EReal) (ix1 e)
      = raw ⟨12, by decide⟩ (xs W (ix1 e)) (ys W (ix1 e)) (zs W (ix1 e)) := by
  after_results_simp
  rfl

set_option maxHeartbeats 1000000 in
theorem col13_apply (W : Valuation τ sig (Elt Ideal)) (e : Fin 6400000) :
    (after opsC W (main_v79 : DevRef τ sig) : S6400000.Idx → EReal) (ix1 e)
      = raw ⟨13, by decide⟩ (xs W (ix1 e)) (ys W (ix1 e)) (zs W (ix1 e)) := by
  after_results_simp
  rfl

set_option maxHeartbeats 1000000 in
theorem col14_apply (W : Valuation τ sig (Elt Ideal)) (e : Fin 6400000) :
    (after opsC W (main_v82 : DevRef τ sig) : S6400000.Idx → EReal) (ix1 e)
      = raw ⟨14, by decide⟩ (xs W (ix1 e)) (ys W (ix1 e)) (zs W (ix1 e)) := by
  after_results_simp
  rfl

set_option maxHeartbeats 1000000 in
theorem col15_apply (W : Valuation τ sig (Elt Ideal)) (e : Fin 6400000) :
    (after opsC W (main_v87 : DevRef τ sig) : S6400000.Idx → EReal) (ix1 e)
      = raw ⟨15, by decide⟩ (xs W (ix1 e)) (ys W (ix1 e)) (zs W (ix1 e)) := by
  after_results_simp
  rfl

/-- Entry j of edge e's row before its scale, after the stretch, is `raw j` of the unit vector's coordinates before it. -/
theorem cols_apply (W : Valuation τ sig (Elt Ideal)) (e : Fin 6400000) (j : Fin 16) :
    colR (after opsC W) j (ix1 e) = raw j (xs W (ix1 e)) (ys W (ix1 e)) (zs W (ix1 e)) := by
  match j with
  | ⟨0, _⟩ => exact col0_apply W e
  | ⟨1, _⟩ => exact col1_apply W e
  | ⟨2, _⟩ => exact col2_apply W e
  | ⟨3, _⟩ => exact col3_apply W e
  | ⟨4, _⟩ => exact col4_apply W e
  | ⟨5, _⟩ => exact col5_apply W e
  | ⟨6, _⟩ => exact col6_apply W e
  | ⟨7, _⟩ => exact col7_apply W e
  | ⟨8, _⟩ => exact col8_apply W e
  | ⟨9, _⟩ => exact col9_apply W e
  | ⟨10, _⟩ => exact col10_apply W e
  | ⟨11, _⟩ => exact col11_apply W e
  | ⟨12, _⟩ => exact col12_apply W e
  | ⟨13, _⟩ => exact col13_apply W e
  | ⟨14, _⟩ => exact col14_apply W e
  | ⟨15, _⟩ => exact col15_apply W e
  | ⟨_ + 16, h⟩ => exact absurd h (Nat.not_lt.2 (Nat.le_add_left _ _))

/-- The stretch does not write the table of scales. -/
theorem tbl_kept (W : Valuation τ sig (Elt Ideal)) : tbl (after opsC W) = tbl W := by
  show after opsC W (main_cst : DevRef τ sig) = W (main_cst : DevRef τ sig)
  after_results_simp

/-- The stretch writes neither argument array. -/
theorem arg0_kept (W : Valuation τ sig (Elt Ideal)) : after opsC W (main_arg0 : DevRef τ sig) = W (main_arg0 : DevRef τ sig) := by
  after_results_simp

theorem arg1_kept (W : Valuation τ sig (Elt Ideal)) : after opsC W (main_arg1 : DevRef τ sig) = W (main_arg1 : DevRef τ sig) := by
  after_results_simp

end Cert.ReferenceIdeal.RefReadC

end
-- ==== Proof.RefReadD.lean ====
/-
  The reference's last stretch, read entry by entry.

  The sixteen vectors (entry j of every edge's row, before its scale) are each made a column, the columns are laid side by
  side, and the result is multiplied, entry by entry, by the table of the sixteen scales made a row and repeated down the
  edges.  So the result at edge e, column j is vector j at e times the table's entry j.
-/
import proofs.«119992_j59588376265204_2_alg».proof.Proof.RefCols
import proofs.«119992_j59588376265204_2_alg».proof.Proof.LibColumnReads
import proofs.«119992_j59588376265204_2_alg».proof.Proof.LibBroadcastReads

noncomputable section

namespace Cert.ReferenceIdeal.RefReadD

open Cert.ReferenceIdeal Cert.ReferenceIdeal.Gen Cert.ReferenceIdeal.RefOps Cert.ReferenceIdeal.RefCols
open Idealize.ShloMosaic Idealize.ShloMosaic.TcCoe Idealize.SL.Sem Idealize.ShloMosaic.StableHlo Idealize.ShloMosaic.ValueIdx
open Cert.Lib.ColumnReads Cert.Lib.BroadcastReads

set_option maxHeartbeats 2000000 in
/-- The result at (e, j) is vector j at e times the table at j. -/
theorem res_apply (W : Valuation τ sig (Elt Ideal)) (e : Fin 6400000) (j : Fin 16) :
    res (after opsD W) (ix2 e j) = colR W j (ix1 e) * tbl W (ix1 j) := by
  show (after opsD W (main_v107 : DevRef τ sig) : S6400000x16.Idx → EReal) (ix2 e j) = _
  after_results_simp
  simp only [Matrix.cons_val]
  repeat (first
    | rw [unary_result]
    | (rw [unary_result_ne]; rotate_left; decide))
  refine (mulf_apply _ _ _).trans ?_
  refine congrArg₂ HMul.hMul ?_ ?_
  · refine (concat_columns_apply (a := 6400000) (N := 16)
      (fun n : Fin 16 => broadcastInDim S6400000x1 ![0] bcast_S6400000_S6400000x1_0 (colR W n)) _ e j).trans ?_
    exact broadcastInDim_a_a1_apply (a := 6400000) _ _ e 0
  · refine (broadcastInDim_1b_ab_apply (a := 6400000) (b := 16) _ _ e j).trans ?_
    exact broadcastInDim_b_1b_apply (b := 16) _ _ 0 j

/-- The stretch writes neither argument array. -/
theorem arg0_kept (W : Valuation τ sig (Elt Ideal)) : after opsD W (main_arg0 : DevRef τ sig) = W (main_arg0 : DevRef τ sig) := by
  after_results_simp

theorem arg1_kept (W : Valuation τ sig (Elt Ideal)) : after opsD W (main_arg1 : DevRef τ sig) = W (main_arg1 : DevRef τ sig) := by
  after_results_simp

end Cert.ReferenceIdeal.RefReadD

end
-- ==== Proof.LibAfter.lean ====
/-
  A general fact about a straight line of host operations: running one list of operations after another is
  running their concatenation.
-/
import Idealize.ShloMosaic.Lib.StableHlo.Run

namespace Idealize.ShloMosaic.StableHlo

variable {τ : Topo} {sig : RefSig} {Val : EltTy → Type}

/-- The buffer contents after the operations `l₁ ++ l₂` are the contents after `l₂`, started from the contents
    after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefVal.lean ====
/-
  The reference's result array, whole.

  Stretch by stretch: the last stretch's result at (e, j) is vector j at e times the table's entry j; vector j at e is
  `raw j` of the unit vector at e; the unit vector's coordinates are the edge vector's divided by its clamped norm; the
  table's entry j is the scale `coef j`.  Together: the result at (e, j) is `Sph.refElt j` of edge vector e, which is
  `Sph.kerElt j` of it (the law), so the whole array is `Sph.shArr` of the edge vectors the first stretch computes.
  The argument arrays are written by no stretch.
-/
import proofs.«119992_j59588376265204_2_alg».proof.Proof.RefRun
import proofs.«119992_j59588376265204_2_alg».proof.Proof.RefReadA
import proofs.«119992_j59588376265204_2_alg».proof.Proof.RefReadB
import proofs.«119992_j59588376265204_2_alg».proof.Proof.RefReadC
import proofs.«119992_j59588376265204_2_alg».proof.Proof.RefReadD
import proofs.«119992_j59588376265204_2_alg».proof.Proof.SphArr
import proofs.«119992_j59588376265204_2_alg».proof.Proof.LibAfter

noncomputable section

namespace Cert.ReferenceIdeal.RefVal

open Cert.ReferenceIdeal Cert.ReferenceIdeal.Gen Cert.ReferenceIdeal.RefOps Cert.ReferenceIdeal.RefCols
open Idealize.ShloMosaic Idealize.ShloMosaic.TcCoe Idealize.SL.Sem Idealize.ShloMosaic.StableHlo Idealize.ShloMosaic.ValueIdx
open Cert.Sph

/-- THE RESULT after the whole line, from any contents `W` before it: `shArr` of the edge vectors the first stretch leaves. -/
theorem res_eq (W : Valuation τ sig (Elt Ideal)) : res (after ops W) = shArr (evs (after opsA W)) := by
  funext i
  obtain ⟨e, j, rfl⟩ : ∃ (e : Fin 6400000) (j : Fin 16), i = ix2 e j := ⟨i 0, i 1, eq_ix2 i⟩
  rw [shArr_apply]
  show res (after (opsA ++ (opsB ++ (opsC ++ opsD))) W) (ix2 e j) = _
  rw [after_append, after_append, after_append]
  rw [RefReadD.res_apply, RefReadC.cols_apply, RefReadC.tbl_kept, RefReadB.tbl_kept, RefReadA.tbl_apply,
    RefReadB.x_apply, RefReadB.y_apply, RefReadB.z_apply]
  exact refElt_eq_kerElt j (fun k => evs (after opsA W) (ix2 e k))

/-- No operation of the line writes the first argument array. -/
theorem arg0_eq (W : Valuation τ sig (Elt Ideal)) : after ops W (main_arg0 : DevRef τ sig) = W (main_arg0 : DevRef τ sig) := by
  show after (opsA ++ (opsB ++ (opsC ++ opsD))) W (main_arg0 : DevRef τ sig) = _
  rw [after_append, after_append, after_append, RefReadD.arg0_kept, RefReadC.arg0_kept, RefReadB.arg0_kept, RefReadA.arg0_kept]

/-- Nor the second. -/
theorem arg1_eq (W : Valuation τ sig (Elt Ideal)) : after ops W (main_arg1 : DevRef τ sig) = W (main_arg1 : DevRef τ sig) := by
  show after (opsA ++ (opsB ++ (opsC ++ opsD))) W (main_arg1 : DevRef τ sig) = _
  rw [after_append, after_append, after_append, RefReadD.arg1_kept, RefReadC.arg1_kept, RefReadB.arg1_kept, RefReadA.arg1_kept]

/-- The run, read: every weakly fair execution terminates with the result array at `shArr` of the edge vectors the first
    stretch computes from the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = shArr (evs (after opsA (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v107).trans (res_eq _), (h c main_arg0).trans (arg0_eq _),
      (h c main_arg1).trans (arg1_eq _)⟩) (RefRun.run_main m ρ)

end Cert.ReferenceIdeal.RefVal

end
-- ==== Proof.Edge.lean ====
/-
  The edge vectors are one array in both programs.

  Both programs begin with the same host operations on the two arguments: each endpoint's row of the index array, a
  negative index wrapped by the number of nodes, the gather of that node's position, and the difference of the two
  gathered arrays.  Operation by operation the two lines are the same functions of the arguments, so from argument arrays
  that agree they leave the same 6400000 × 3 array of edge vectors.
-/
import proofs.«119992_j59588376265204_2_alg».proof.Proof.RefOps
import proofs.«119992_j59588376265204_2_alg».proof.Proof.Gen.KernelIdeal.Launch
import Idealize.ShloMosaic.PureOps.Ideal

noncomputable section

namespace Cert.Edge

open Idealize.ShloMosaic Idealize.ShloMosaic.TcCoe Idealize.SL.Sem Idealize.ShloMosaic.StableHlo

/-- From contents that agree on the two arguments, the reference's first stretch and the kernel program's host prefix
    leave the same edge vectors. -/
theorem edge_eq (WK : Valuation Cert.KernelIdeal.τ Cert.KernelIdeal.sig (Elt Ideal))
    (WR : Valuation Cert.ReferenceIdeal.τ Cert.ReferenceIdeal.sig (Elt Ideal))
    (h0 : WR (Cert.ReferenceIdeal.main_arg0 : DevRef Cert.ReferenceIdeal.τ Cert.ReferenceIdeal.sig)
      = WK (Cert.KernelIdeal.main_arg0 : DevRef Cert.KernelIdeal.τ Cert.KernelIdeal.sig))
    (h1 : WR (Cert.ReferenceIdeal.main_arg1 : DevRef Cert.ReferenceIdeal.τ Cert.ReferenceIdeal.sig)
      = WK (Cert.KernelIdeal.main_arg1 : DevRef Cert.KernelIdeal.τ Cert.KernelIdeal.sig)) :
    after Cert.ReferenceIdeal.RefOps.opsA WR (Cert.ReferenceIdeal.main_v18 : DevRef Cert.ReferenceIdeal.τ Cert.ReferenceIdeal.sig)
      = after Cert.KernelIdeal.Gen.hostOps0 WK (Cert.KernelIdeal.main_v18 : DevRef Cert.KernelIdeal.τ Cert.KernelIdeal.sig) := by
  after_results_simp
  rw [h0, h1]
  rfl

end Cert.Edge

end
-- ==== Proof.lean ====
/-
  Spherical harmonics of normalised edge vectors: the kernel program and the reference compute the same array.

  Both programs first form the edge vectors pos[receiver] − pos[sender] by the same host operations (Proof/Edge.lean: one
  array in both).  The kernel program then runs a grid of 800 points, each turning 8000 edge vectors into 8000 rows of
  sixteen entries; its result array is the whole-array function `Sph.shArr` of the edge vectors (Proof/KerPay.lean: the
  stored block entry by entry; Proof/KerVal.lean: the blocks tile the array).  The reference does the same arithmetic on
  whole arrays by host operations (Proof/RefRun.lean: it is a straight line and runs; Proof/RefRead*.lean, Proof/RefVal.lean:
  its result is `Sph.shArr` of its edge vectors).  The two spellings of a row's entry differ in three ways only — a
  product with the reciprocal norm against a quotient by the norm, the three squares summed pairwise against summed from a
  zero start, the scale on the left against the scale on the right — and Proof/Sph.lean shows they are one function on the
  extended reals (the norm is clamped below by ε > 0, so it is never zero; no finiteness of the inputs is used).

  The three frames: the two kernel programs' are generated whole; the reference's is its run with the result dropped.
  The idealization rewrote nothing, so the preservation claim is trivial.
-/
import proofs.«119992_j59588376265204_2_alg».proof.Defs
import proofs.«119992_j59588376265204_2_alg».proof.Proof.Gen.Kernel
import proofs.«119992_j59588376265204_2_alg».proof.Proof.Gen.Kernel.Skeleton
import proofs.«119992_j59588376265204_2_alg».proof.Proof.Gen.Kernel.Launch
import proofs.«119992_j59588376265204_2_alg».proof.Proof.Gen.Kernel.Points
import proofs.«119992_j59588376265204_2_alg».proof.Proof.Gen.Kernel.Frame
import proofs.«119992_j59588376265204_2_alg».proof.Proof.Gen.KernelIdeal
import proofs.«119992_j59588376265204_2_alg».proof.Proof.Gen.KernelIdeal.Skeleton
import proofs.«119992_j59588376265204_2_alg».proof.Proof.Gen.KernelIdeal.Launch
import proofs.«119992_j59588376265204_2_alg».proof.Proof.Gen.KernelIdeal.Points
import proofs.«119992_j59588376265204_2_alg».proof.Proof.Gen.KernelIdeal.Frame
import proofs.«119992_j59588376265204_2_alg».proof.Proof.Gen.ReferenceIdeal
import proofs.«119992_j59588376265204_2_alg».proof.Proof.Gen.Pre_finite_inputs
import proofs.«119992_j59588376265204_2_alg».proof.Proof.KerVal
import proofs.«119992_j59588376265204_2_alg».proof.Proof.RefVal
import proofs.«119992_j59588376265204_2_alg».proof.Proof.Edge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefVal.run m ρ)

/-- The idealization rewrote no operation. -/
theorem preserves : Cert.preserves_Kernel_KernelIdeal := trivial

/-- Both idealized programs end with the result array at `shArr` of their edge vectors, and from arguments that agree
    the edge vectors are one array. -/
theorem algebraic : Cert.algebraic_KernelIdeal_ReferenceIdeal := by
  intro m ρ m' ρ' _ hagree
  refine ⟨fun c => Cert.Sph.shArr (Cert.KernelIdeal.Gen.V m c Cert.KernelIdeal.main_v18), Cert.KernelIdeal.KerVal.run m ρ, ?_⟩
  refine (θ_run Cert.ReferenceIdeal.defs _ _).mono (fun _ h c => ⟨(h c).1.trans ?_, (h c).2⟩)
    (Cert.ReferenceIdeal.RefVal.run m' ρ')
  refine congrArg Cert.Sph.shArr ?_
  exact Cert.Edge.edge_eq (fun b => m (c, b)) (launchContents m' c) (hagree c).1 (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
